-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1433 : Shape := ⟨2, ![100000, 1433]⟩
abbrev S2x3200000 : Shape := ⟨2, ![2, 3200000]⟩
abbrev S1433x16 : Shape := ⟨2, ![1433, 16]⟩
abbrev S16 : Shape := ⟨1, ![16]⟩
abbrev S16x7 : Shape := ⟨2, ![16, 7]⟩
abbrev S7 : Shape := ⟨1, ![7]⟩
abbrev S_ : Shape := ⟨0, ![]⟩

class Facts : Prop where
  bcast_S_S100000x1433 : S_.BroadcastsInDim S100000x1433 (![] : Fin 0 → Fin S100000x1433.rank)
  reducesTo_S100000x1433_S_d0_1 : S100000x1433.ReducesTo [0, 1] S_
  h_S_ : 0 < S_.numel
  bcast_S_S1433x16 : S_.BroadcastsInDim S1433x16 (![] : Fin 0 → Fin S1433x16.rank)
  reducesTo_S1433x16_S_d0_1 : S1433x16.ReducesTo [0, 1] S_
  bcast_S_S16 : S_.BroadcastsInDim S16 (![] : Fin 0 → Fin S16.rank)
  reducesTo_S16_S_d0 : S16.ReducesTo [0] S_
  bcast_S_S16x7 : S_.BroadcastsInDim S16x7 (![] : Fin 0 → Fin S16x7.rank)
  reducesTo_S16x7_S_d0_1 : S16x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg5 : FVec F S7 .f32) (main_v13 : IVec S_ 1) (main_v16 : IVec S16x7 1) : IVec S_ 1 :=
  let main_c_5 : IVec S_ 1 := constantI S_ 1 1#1
  let main_v17 : IVec S_ 1 := (fun x v => Host.reduce IntOp.andi x v reducesTo_S16x7_S_d0_1 h_S_) main_v16 main_c_5
  let main_v18 : IVec S_ 1 := andi main_v13 main_v17
  let main_v19 : FVec F S7 .f32 := Host.absf main_arg5
  let main_cst_6 : FVec F S_ .f32 := constant S_ .f32 0x7F800000#32
  let main_v20 : FVec F S7 .f32 := broadcastInDim S7 ![] bcast_S_S7 main_cst_6
  let main_v21 : IVec S7 1 := cmpf .olt main_v19 main_v20
  let main_c_7 : IVec S_ 1 := constantI S_ 1 1#1
  let main_v22 : IVec S_ 1 := (fun x v => Host.reduce IntOp.andi x v reducesTo_S7_S_d0 h_S_) main_v21 main_c_7
  let main_v23 : IVec S_ 1 := andi main_v18 main_v22
  main_v23

def fn {F : FTy → Type} [FloatOps F] (main_arg0 : FVec F S100000x1433 .f32) (main_arg1 : IVec S2x3200000 32) (main_arg2 : FVec F S1433x16 .f32) (main_arg3 : FVec F S16 .f32) (main_arg4 : FVec F S16x7 .f32) (main_arg5 : FVec F S7 .f32) : IVec S_ 1 :=
  let main_v0 : FVec F S100000x1433 .f32 := Host.absf main_arg0
  let main_cst : FVec F S_ .f32 := constant S_ .f32 0x7F800000#32
  let main_v1 : FVec F S100000x1433 .f32 := broadcastInDim S100000x1433 ![] bcast_S_S100000x1433 main_cst
  let main_v2 : IVec S100000x1433 1 := cmpf .olt main_v0 main_v1
  let main_c : IVec S_ 1 := constantI S_ 1 1#1
  let main_v3 : IVec S_ 1 := (fun x v => Host.reduce IntOp.andi x v reducesTo_S100000x1433_S_d0_1 h_S_) main_v2 main_c
  let main_v4 : FVec F S1433x16 .f32 := Host.absf main_arg2
  let main_cst_0 : FVec F S_ .f32 := constant S_ .f32 0x7F800000#32
  let main_v5 : FVec F S1433x16 .f32 := broadcastInDim S1433x16 ![] bcast_S_S1433x16 main_cst_0
  let main_v6 : IVec S1433x16 1 := cmpf .olt main_v4 main_v5
  let main_c_1 : IVec S_ 1 := constantI S_ 1 1#1
  let main_v7 : IVec S_ 1 := (fun x v => Host.reduce IntOp.andi x v reducesTo_S1433x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x7 .f32 := Host.absf main_arg4
  let main_cst_4 : FVec F S_ .f32 := constant S_ .f32 0x7F800000#32
  let main_v15 : FVec F S16x7 .f32 := broadcastInDim S16x7 ![] bcast_S_S16x7 main_cst_4
  let main_v16 : IVec S16x7 1 := cmpf .olt main_v14 main_v15
  fn_part1 (F := F) main_arg5 main_v13 main_v16
-- ==== Kernel.lean ====
abbrev S100000x1433 : Shape := ⟨2, ![100000, 1433]⟩
abbrev S2x3200000 : Shape := ⟨2, ![2, 3200000]⟩
abbrev S1433x16 : Shape := ⟨2, ![1433, 16]⟩
abbrev S16 : Shape := ⟨1, ![16]⟩
abbrev S16x7 : Shape := ⟨2, ![16, 7]⟩
abbrev S7 : Shape := ⟨1, ![7]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S1000x1433 : Shape := ⟨2, ![1000, 1433]⟩
abbrev S1000x16 : Shape := ⟨2, ![1000, 16]⟩
abbrev S3300000x16 : Shape := ⟨2, ![3300000, 16]⟩
abbrev S1x16 : Shape := ⟨2, ![1, 16]⟩
abbrev S100000x7 : Shape := ⟨2, ![100000, 7]⟩
abbrev S2000x16 : Shape := ⟨2, ![2000, 16]⟩
abbrev S2000x7 : Shape := ⟨2, ![2000, 7]⟩
abbrev S3300000x7 : Shape := ⟨2, ![3300000, 7]⟩
abbrev S1x7 : Shape := ⟨2, ![1, 7]⟩
abbrev S100000x1 : Shape := ⟨2, ![100000, 1]⟩

abbrev nBuf : Space → Nat
  | .hbm => 104
  | .vmem => 10
  | .smem => 0
  | _ => 0

abbrev bufTy : (tb : Table) → Fin (tcTables nBuf tb) → BufTy
  | .hbm, ⟨0, _⟩ => ⟨S100000x1433, .f32⟩
  | .hbm, ⟨1, _⟩ => ⟨S2x3200000, .i32⟩
  | .hbm, ⟨2, _⟩ => ⟨S1433x16, .f32⟩
  | .hbm, ⟨3, _⟩ => ⟨S16, .f32⟩
  | .hbm, ⟨4, _⟩ => ⟨S16x7, .f32⟩
  | .hbm, ⟨5, _⟩ => ⟨S7, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x16, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S_, .f32⟩
  | .hbm, ⟨67, _⟩ => ⟨S100000x16, .f32⟩
  | .hbm, ⟨68, _⟩ => ⟨S100000x16, .f32⟩
  | .hbm, ⟨69, _⟩ => ⟨S100000x7, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000x7, .f32⟩
  | .hbm, ⟨79, _⟩ => ⟨S3300000x1, .f32⟩
  | .hbm, ⟨80, _⟩ => ⟨S3300000x7, .f32⟩
  | .hbm, ⟨81, _⟩ => ⟨S3300000x7, .f32⟩
  | .hbm, ⟨82, _⟩ => ⟨S_, .f32⟩
  | .hbm, ⟨83, _⟩ => ⟨S100000x7, .f32⟩
  | .hbm, ⟨84, _⟩ => ⟨S3300000x1, .i32⟩
  | .hbm, ⟨85, _⟩ => ⟨S100000x7, .f32⟩
  | .hbm, ⟨86, _⟩ => ⟨S1x7, .f32⟩
  | .hbm, ⟨87, _⟩ => ⟨S100000x7, .f32⟩
  | .hbm, ⟨88, _⟩ => ⟨S100000x7, .f32⟩
  | .hbm, ⟨89, _⟩ => ⟨S_, .f32⟩
  | .hbm, ⟨90, _⟩ => ⟨S100000, .f32⟩
  | .hbm, ⟨91, _⟩ => ⟨S_, .f32⟩
  | .hbm, ⟨92, _⟩ => ⟨S100000, .f32⟩
  | .hbm, ⟨93, _⟩ => ⟨S100000, .f32⟩
  | .hbm, ⟨94, _⟩ => ⟨S100000x1, .f32⟩
  | .hbm, ⟨95, _⟩ => ⟨S100000x7, .f32⟩
  | .hbm, ⟨96, _⟩ => ⟨S100000x7, .f32⟩
  | .hbm, ⟨97, _⟩ => ⟨S100000x7, .f32⟩
  | .hbm, ⟨98, _⟩ => ⟨S_, .f32⟩
  | .hbm, ⟨99, _⟩ => ⟨S100000, .f32⟩
  | .hbm, ⟨100, _⟩ => ⟨S100000x1, .f32⟩
  | .hbm, ⟨101, _⟩ => ⟨S100000x1, .f32⟩
  | .hbm, ⟨102, _⟩ => ⟨S100000x7, .f32⟩
  | .hbm, ⟨103, _⟩ => ⟨S100000x7, .f32⟩
  | .local _ .vmem, ⟨0, _⟩ => ⟨S1000x1433, .f32⟩
  | .local _ .vmem, ⟨1, _⟩ => ⟨S1000x1433, .f32⟩
  | .local _ .vmem, ⟨2, _⟩ => ⟨S1433x16, .f32⟩
  | .local _ .vmem, ⟨3, _⟩ => ⟨S1000x16, .f32⟩
  | .local _ .vmem, ⟨4, _⟩ => ⟨S1000x16, .f32⟩
  | .local _ .vmem, ⟨5, _⟩ => ⟨S2000x16, .f32⟩
  | .local _ .vmem, ⟨6, _⟩ => ⟨S2000x16, .f32⟩
  | .local _ .vmem, ⟨7, _⟩ => ⟨S16x7, .f32⟩
  | .local _ .vmem, ⟨8, _⟩ => ⟨S2000x7, .f32⟩
  | .local _ .vmem, ⟨9, _⟩ => ⟨S2000x7, .f32⟩
  | _, _ => ⟨S100000x1433, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call2_cst : Ref sig .tc := ⟨.hbm, 89, rfl⟩
abbrev main_call2_v0 : Ref sig .tc := ⟨.hbm, 90, rfl⟩
abbrev main_call2_cst_0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_v6 : Ref sig .tc := ⟨.hbm, 97, rfl⟩
abbrev main_call2_cst_1 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_v65 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x1433 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1433x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x7 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x7 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S1000x1433_S1000x1433_0_0 : ∀ a, (![0, 0] : Fin 2 → Nat) a + S1000x1433.size a ≤ S1000x1433.size a
  h_S1000x1433 : 0 < S1000x1433.numel
  bitsLt_bf16_f32 : FTy.bits .bf16 < FTy.bits .f32
  inb_S1433x16_S1433x16_0_0 : ∀ a, (![0, 0] : Fin 2 → Nat) a + S1433x16.size a ≤ S1433x16.size a
  h_S1433x16 : 0 < S1433x16.numel
  inb_S1000x16_S1000x16_0_0 : ∀ a, (![0, 0] : Fin 2 → Nat) a + S1000x16.size a ≤ S1000x16.size a
  h_S1000x16 : 0 < S1000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  inb_S2000x16_S2000x16_0_0 : ∀ a, (![0, 0] : Fin 2 → Nat) a + S2000x16.size a ≤ S2000x16.size a
  h_S2000x16 : 0 < S2000x16.numel
  shapeCasts_S2000x16_S2000x16 : S2000x16.ShapeCasts S2000x16
  inb_S16x7_S16x7_0_0 : ∀ a, (![0, 0] : Fin 2 → Nat) a + S16x7.size a ≤ S16x7.size a
  h_S16x7 : 0 < S16x7.numel
  inb_S2000x7_S2000x7_0_0 : ∀ a, (![0, 0] : Fin 2 → Nat) a + S2000x7.size a ≤ S2000x7.size a
  h_S2000x7 : 0 < S2000x7.numel
  bcast_S3300000x1_S3300000x7_0_1 : S3300000x1.BroadcastsInDim S3300000x7 (![0, 1] : Fin 2 → Fin S3300000x7.rank)
  bcast_S_S100000x7 : S_.BroadcastsInDim S100000x7 (![] : Fin 0 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  reducesTo_S100000x7_S100000_d1 : S100000x7.ReducesTo [1] S100000
  h_S_ : 0 < S_.numel
  bcast_S100000_S100000x1_0 : S100000.BroadcastsInDim S100000x1 (![0] : Fin 1 → Fin S100000x1.rank)
  bcast_S100000x1_S100000x7_0_1 : S100000x1.BroadcastsInDim S100000x7 (![0, 1] : Fin 2 → Fin S100000x7.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S1000x1433_S1433x16_S1000x16_1_0_0_1_n_n_wf : DotDims.WF S1000x1433 S1433x16 S1000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S2000x16_S16x7_S2000x7_1_0_0_1_n_n_wf : DotDims.WF S2000x16 S16x7 S2000x7 [1] [0] [0] [1] [] []
  gather_S100000x7_S3300000x1_S3300000x7_1_0_n_n_0_1_17_wf : GatherDims.WF S100000x7 S3300000x1 S3300000x7 [1] [0] [] [0] [] 1 ![1, 7]
  scatter_S100000x7_S3300000x1_S3300000x7_1_0_0_1_wf : ScatterDims.WF S100000x7 S3300000x1 S3300000x7 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x1433.size a ≤ S100000x1433.size a
  hwx0_0 : ∀ i : grid0.Coords, EltTy.bits .f32 = 32 ∨ (Rect.block (s := S100000x1433) S1000x1433.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1433x16.size a ≤ S1433x16.size a
  hwx0_1 : ∀ i : grid0.Coords, EltTy.bits .f32 = 32 ∨ (Rect.block (s := S1433x16) S1433x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x16.size a ≤ S100000x16.size a
  hwx0_2 : ∀ i : grid0.Coords, EltTy.bits .f32 = 32 ∨ (Rect.block (s := S100000x16) S1000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x16.size a ≤ S100000x16.size a
  hwx1_0 : ∀ i : grid1.Coords, EltTy.bits .f32 = 32 ∨ (Rect.block (s := S100000x16) S2000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x7.size a ≤ S16x7.size a
  hwx1_1 : ∀ i : grid1.Coords, EltTy.bits .f32 = 32 ∨ (Rect.block (s := S16x7) S16x7.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x7.size a ≤ S100000x7.size a
  hwx1_2 : ∀ i : grid1.Coords, EltTy.bits .f32 = 32 ∨ (Rect.block (s := S100000x7) S2000x7.size (cc1_transform_2 i) (hinb1_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S1000x1433_S1433x16_S1000x16_1_0_0_1_n_n : DotDims S1000x1433 S1433x16 S1000x16 where
  lhsContracting := [1]
  rhsContracting := [0]
  lhsNonContracting := [0]
  rhsNonContracting := [1]
  lhsBatch := []
  rhsBatch := []
  wf := dot_S1000x1433_S1433x16_S1000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S2000x16_S16x7_S2000x7_1_0_0_1_n_n : DotDims S2000x16 S16x7 S2000x7 where
  lhsContracting := [1]
  rhsContracting := [0]
  lhsNonContracting := [0]
  rhsNonContracting := [1]
  lhsBatch := []
  rhsBatch := []
  wf := dot_S2000x16_S16x7_S2000x7_1_0_0_1_n_n_wf
def gather_S100000x7_S3300000x1_S3300000x7_1_0_n_n_0_1_17 : GatherDims S100000x7 S3300000x1 S3300000x7 where
  offsetDims := [1]
  collapsedSliceDims := [0]
  operandBatchingDims := []
  startIndicesBatchingDims := []
  startIndexMap := [0]
  indexVectorDim := 1
  sliceSizes := ![1, 7]
  wf := gather_S100000x7_S3300000x1_S3300000x7_1_0_n_n_0_1_17_wf
def scatter_S100000x7_S3300000x1_S3300000x7_1_0_0_1 : ScatterDims S100000x7 S3300000x1 S3300000x7 where
  updateWindowDims := [1]
  insertedWindowDims := [0]
  scatterDimsToOperandDims := [0]
  indexVectorDim := 1
  wf := scatter_S100000x7_S3300000x1_S3300000x7_1_0_0_1_wf

abbrev win0_0 : Pipeline.Window sig grid0 :=
  Pipeline.Window.ofSpec (Memref.whole main_arg0) S1000x1433.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1433x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S2000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S16x7.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S2000x7.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x1433 : Shape := ⟨2, ![100000, 1433]⟩
abbrev S2x3200000 : Shape := ⟨2, ![2, 3200000]⟩
abbrev S1433x16 : Shape := ⟨2, ![1433, 16]⟩
abbrev S16 : Shape := ⟨1, ![16]⟩
abbrev S16x7 : Shape := ⟨2, ![16, 7]⟩
abbrev S7 : Shape := ⟨1, ![7]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x7 : Shape := ⟨2, ![100000, 7]⟩
abbrev S3300000x7 : Shape := ⟨2, ![3300000, 7]⟩
abbrev S1x7 : Shape := ⟨2, ![1, 7]⟩
abbrev S100000x1 : Shape := ⟨2, ![100000, 1]⟩

abbrev nBuf : Space → Nat
  | .hbm => 123
  | .vmem => 0
  | .smem => 0
  | _ => 0

abbrev bufTy : (tb : Table) → Fin (tcTables nBuf tb) → BufTy
  | .hbm, ⟨0, _⟩ => ⟨S100000x1433, .f32⟩
  | .hbm, ⟨1, _⟩ => ⟨S2x3200000, .i32⟩
  | .hbm, ⟨2, _⟩ => ⟨S1433x16, .f32⟩
  | .hbm, ⟨3, _⟩ => ⟨S16, .f32⟩
  | .hbm, ⟨4, _⟩ => ⟨S16x7, .f32⟩
  | .hbm, ⟨5, _⟩ => ⟨S7, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x16, .f32⟩
  | .hbm, ⟨28, _⟩ => ⟨S_, .i32⟩
  | .hbm, ⟨29, _⟩ => ⟨S3300000, .i32⟩
  | .hbm, ⟨30, _⟩ => ⟨S3300000, .i1⟩
  | .hbm, ⟨31, _⟩ => ⟨S_, .i32⟩
  | .hbm, ⟨32, _⟩ => ⟨S3300000, .i32⟩
  | .hbm, ⟨33, _⟩ => ⟨S3300000, .i32⟩
  | .hbm, ⟨34, _⟩ => ⟨S3300000, .i32⟩
  | .hbm, ⟨35, _⟩ => ⟨S3300000x1, .i32⟩
  | .hbm, ⟨36, _⟩ => ⟨S3300000, .f32⟩
  | .hbm, ⟨37, _⟩ => ⟨S_, .i32⟩
  | .hbm, ⟨38, _⟩ => ⟨S3300000, .i32⟩
  | .hbm, ⟨39, _⟩ => ⟨S3300000, .i1⟩
  | .hbm, ⟨40, _⟩ => ⟨S_, .i32⟩
  | .hbm, ⟨41, _⟩ => ⟨S3300000, .i32⟩
  | .hbm, ⟨42, _⟩ => ⟨S3300000, .i32⟩
  | .hbm, ⟨43, _⟩ => ⟨S3300000, .i32⟩
  | .hbm, ⟨44, _⟩ => ⟨S3300000x1, .i32⟩
  | .hbm, ⟨45, _⟩ => ⟨S3300000, .f32⟩
  | .hbm, ⟨46, _⟩ => ⟨S3300000, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S_, .f32⟩
  | .hbm, ⟨67, _⟩ => ⟨S100000x16, .f32⟩
  | .hbm, ⟨68, _⟩ => ⟨S100000x16, .f32⟩
  | .hbm, ⟨69, _⟩ => ⟨S100000x7, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000, .f32⟩
  | .hbm, ⟨79, _⟩ => ⟨S_, .i32⟩
  | .hbm, ⟨80, _⟩ => ⟨S3300000, .i32⟩
  | .hbm, ⟨81, _⟩ => ⟨S3300000, .i1⟩
  | .hbm, ⟨82, _⟩ => ⟨S_, .i32⟩
  | .hbm, ⟨83, _⟩ => ⟨S3300000, .i32⟩
  | .hbm, ⟨84, _⟩ => ⟨S3300000, .i32⟩
  | .hbm, ⟨85, _⟩ => ⟨S3300000, .i32⟩
  | .hbm, ⟨86, _⟩ => ⟨S3300000x1, .i32⟩
  | .hbm, ⟨87, _⟩ => ⟨S3300000, .f32⟩
  | .hbm, ⟨88, _⟩ => ⟨S3300000, .f32⟩
  | .hbm, ⟨89, _⟩ => ⟨S_, .i32⟩
  | .hbm, ⟨90, _⟩ => ⟨S3300000, .i32⟩
  | .hbm, ⟨91, _⟩ => ⟨S3300000, .i1⟩
  | .hbm, ⟨92, _⟩ => ⟨S_, .i32⟩
  | .hbm, ⟨93, _⟩ => ⟨S3300000, .i32⟩
  | .hbm, ⟨94, _⟩ => ⟨S3300000, .i32⟩
  | .hbm, ⟨95, _⟩ => ⟨S3300000, .i32⟩
  | .hbm, ⟨96, _⟩ => ⟨S3300000x1, .i32⟩
  | .hbm, ⟨97, _⟩ => ⟨S3300000x7, .f32⟩
  | .hbm, ⟨98, _⟩ => ⟨S3300000x1, .f32⟩
  | .hbm, ⟨99, _⟩ => ⟨S3300000x7, .f32⟩
  | .hbm, ⟨100, _⟩ => ⟨S3300000x7, .f32⟩
  | .hbm, ⟨101, _⟩ => ⟨S_, .f32⟩
  | .hbm, ⟨102, _⟩ => ⟨S100000x7, .f32⟩
  | .hbm, ⟨103, _⟩ => ⟨S3300000x1, .i32⟩
  | .hbm, ⟨104, _⟩ => ⟨S100000x7, .f32⟩
  | .hbm, ⟨105, _⟩ => ⟨S1x7, .f32⟩
  | .hbm, ⟨106, _⟩ => ⟨S100000x7, .f32⟩
  | .hbm, ⟨107, _⟩ => ⟨S100000x7, .f32⟩
  | .hbm, ⟨108, _⟩ => ⟨S_, .f32⟩
  | .hbm, ⟨109, _⟩ => ⟨S100000, .f32⟩
  | .hbm, ⟨110, _⟩ => ⟨S_, .f32⟩
  | .hbm, ⟨111, _⟩ => ⟨S100000, .f32⟩
  | .hbm, ⟨112, _⟩ => ⟨S100000, .f32⟩
  | .hbm, ⟨113, _⟩ => ⟨S100000x1, .f32⟩
  | .hbm, ⟨114, _⟩ => ⟨S100000x7, .f32⟩
  | .hbm, ⟨115, _⟩ => ⟨S100000x7, .f32⟩
  | .hbm, ⟨116, _⟩ => ⟨S100000x7, .f32⟩
  | .hbm, ⟨117, _⟩ => ⟨S_, .f32⟩
  | .hbm, ⟨118, _⟩ => ⟨S100000, .f32⟩
  | .hbm, ⟨119, _⟩ => ⟨S100000x1, .f32⟩
  | .hbm, ⟨120, _⟩ => ⟨S100000x1, .f32⟩
  | .hbm, ⟨121, _⟩ => ⟨S100000x7, .f32⟩
  | .hbm, ⟨122, _⟩ => ⟨S100000x7, .f32⟩
  | _, _ => ⟨S100000x1433, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c_11 : Ref sig .tc := ⟨.hbm, 79, rfl⟩
abbrev main_v56 : Ref sig .tc := ⟨.hbm, 80, rfl⟩
abbrev main_v57 : Ref sig .tc := ⟨.hbm, 81, rfl⟩
abbrev main_c_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_15 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_call2_cst : Ref sig .tc := ⟨.hbm, 108, rfl⟩
abbrev main_call2_v0 : Ref sig .tc := ⟨.hbm, 109, rfl⟩
abbrev main_call2_cst_0 : Ref sig .tc := ⟨.hbm, 110, rfl⟩
abbrev main_call2_v1 : Ref sig .tc := ⟨.hbm, 111, rfl⟩
abbrev main_call2_v2 : Ref sig .tc := ⟨.hbm, 112, rfl⟩
abbrev main_call2_v3 : Ref sig .tc := ⟨.hbm, 113, rfl⟩
abbrev main_call2_v4 : Ref sig .tc := ⟨.hbm, 114, rfl⟩
abbrev main_call2_v5 : Ref sig .tc := ⟨.hbm, 115, rfl⟩
abbrev main_call2_v6 : Ref sig .tc := ⟨.hbm, 116, rfl⟩
abbrev main_call2_cst_1 : Ref sig .tc := ⟨.hbm, 117, rfl⟩
abbrev main_call2_v7 : Ref sig .tc := ⟨.hbm, 118, rfl⟩
abbrev main_call2_v8 : Ref sig .tc := ⟨.hbm, 119, rfl⟩
abbrev main_call2_v9 : Ref sig .tc := ⟨.hbm, 120, rfl⟩
abbrev main_call2_v10 : Ref sig .tc := ⟨.hbm, 121, rfl⟩
abbrev main_v80 : Ref sig .tc := ⟨.hbm, 122, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x7_0_1 : S3300000x1.BroadcastsInDim S3300000x7 (![0, 1] : Fin 2 → Fin S3300000x7.rank)
  bcast_S_S100000x7 : S_.BroadcastsInDim S100000x7 (![] : Fin 0 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  reducesTo_S100000x7_S100000_d1 : S100000x7.ReducesTo [1] S100000
  h_S_ : 0 < S_.numel
  bcast_S100000_S100000x1_0 : S100000.BroadcastsInDim S100000x1 (![0] : Fin 1 → Fin S100000x1.rank)
  bcast_S100000x1_S100000x7_0_1 : S100000x1.BroadcastsInDim S100000x7 (![0, 1] : Fin 2 → Fin S100000x7.rank)
  scatter_S100000_S3300000x1_S3300000_n_0_0_1_wf : ScatterDims.WF S100000 S3300000x1 S3300000 [] [0] [0] 1
  dot_S100000x1433_S1433x16_S100000x16_1_0_0_1_n_n_wf : DotDims.WF S100000x1433 S1433x16 S100000x16 [1] [0] [0] [1] [] []
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x7_S100000x7_1_0_0_1_n_n_wf : DotDims.WF S100000x16 S16x7 S100000x7 [1] [0] [0] [1] [] []
  gather_S100000x7_S3300000x1_S3300000x7_1_0_n_n_0_1_17_wf : GatherDims.WF S100000x7 S3300000x1 S3300000x7 [1] [0] [] [0] [] 1 ![1, 7]
  scatter_S100000x7_S3300000x1_S3300000x7_1_0_0_1_wf : ScatterDims.WF S100000x7 S3300000x1 S3300000x7 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S100000x1433_S1433x16_S100000x16_1_0_0_1_n_n : DotDims S100000x1433 S1433x16 S100000x16 where
  lhsContracting := [1]
  rhsContracting := [0]
  lhsNonContracting := [0]
  rhsNonContracting := [1]
  lhsBatch := []
  rhsBatch := []
  wf := dot_S100000x1433_S1433x16_S100000x16_1_0_0_1_n_n_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x7_S100000x7_1_0_0_1_n_n : DotDims S100000x16 S16x7 S100000x7 where
  lhsContracting := [1]
  rhsContracting := [0]
  lhsNonContracting := [0]
  rhsNonContracting := [1]
  lhsBatch := []
  rhsBatch := []
  wf := dot_S100000x16_S16x7_S100000x7_1_0_0_1_n_n_wf
def gather_S100000x7_S3300000x1_S3300000x7_1_0_n_n_0_1_17 : GatherDims S100000x7 S3300000x1 S3300000x7 where
  offsetDims := [1]
  collapsedSliceDims := [0]
  operandBatchingDims := []
  startIndicesBatchingDims := []
  startIndexMap := [0]
  indexVectorDim := 1
  sliceSizes := ![1, 7]
  wf := gather_S100000x7_S3300000x1_S3300000x7_1_0_n_n_0_1_17_wf
def scatter_S100000x7_S3300000x1_S3300000x7_1_0_0_1 : ScatterDims S100000x7 S3300000x1 S3300000x7 where
  updateWindowDims := [1]
  insertedWindowDims := [0]
  scatterDimsToOperandDims := [0]
  indexVectorDim := 1
  wf := scatter_S100000x7_S3300000x1_S3300000x7_1_0_0_1_wf

class Facts : Prop extends Facts₀ where

variable [Facts]
-- ==== Proof.KernelRun.lean ====
/-
  The idealized kernel's run with its result named.

  @main is nine segments: three stretches of host operations, the first layer's pallas_call, two stretches, the
  second layer's pallas_call, two stretches. The generated frame runs them in order from the launch memory and
  reads, at the end, every buffer the thread still holds at the last boundary's contents `W9`; it keeps of that
  only the six argument buffers. The same run read at the result buffer as well gives: the result ends at
  `W9 … main_v65`, the fold of the whole program over the launch memory, and the arguments end as launched.
-/
import proofs.«140462_j23587960389983_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last
    boundary's contents and the argument arrays as launched. -/
theorem run : θ_run defs (onTc (τ := τ) (main (F := F))) ⟨m, fun _ => 0, ρ⟩ (fun r => ∀ c : Dev nD,
      r.2.mem ((c.tc : Thread nD τ).loc main_v65) = W9 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v65 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.Whole

end
-- ==== Proof.Spec.lean ====
/-
  The graph convolution the two programs share, as functions of the arrays they take.

  Both programs add a self-loop to every node, so the edge list has 3,200,000 + 100,000 entries: `src e` and `dst e`
  are its source and target columns (row 0 and row 1 of the edge array, followed by 0 … 99,999). A node's degree is
  the number of entries that target it; `invSqrtDeg` is deg^(-1/2) where the degree is positive and 0 elsewhere;
  an edge's coefficient `coef` is the product of that value at its two ends (each end read after a negative node
  number is moved up by 100,000, as jnp's indexing does). A layer takes per-node rows `h`, scales the source's row
  by the edge's coefficient, adds the scaled rows up at each target, and adds a bias row: `hidden` then takes the
  maximum with zero (first layer, 16 columns), `logits` does not (second layer, 7 columns). `logSoftmax` is the
  row-wise z − max z − log ∑ exp (z − max z), the maximum taken from −∞.

  What differs between the programs is only how the per-node rows `h` of each layer are made (a blocked
  matrix-unit product against one host product), so every function here takes `h` as an argument.
-/
import proofs.«140462_j23587960389983_1_alg».proof.Proof.Gen.ReferenceIdeal

noncomputable section

namespace Cert.Gcn

open Idealize.ShloMosaic Cert.ReferenceIdeal Cert.ReferenceIdeal.Gen

variable {F : FTy → Type} [FloatOps F]

/-- The source column of the edge list with the self-loops appended. -/
def src (e : (⟨S2x3200000, .i32⟩ : BufTy).Contents (Elt F)) : (⟨S3300000, .i32⟩ : BufTy).Contents (Elt F) :=
  concatenate S3300000 0 [⟨S3200000, shapeCast S3200000 (extractStridedSlice S1x3200000 ![0, 0] e slices_S2x3200000_S1x3200000_0_0) shapeCasts_S1x3200000_S3200000⟩, ⟨S100000, iotaInDim S100000 32 0⟩] concatenates_S3200000_S100000_S3300000_d0

/-- The target column of the edge list with the self-loops appended. -/
def dst (e : (⟨S2x3200000, .i32⟩ : BufTy).Contents (Elt F)) : (⟨S3300000, .i32⟩ : BufTy).Contents (Elt F) :=
  concatenate S3300000 0 [⟨S3200000, shapeCast S3200000 (extractStridedSlice S1x3200000 ![1, 0] e slices_S2x3200000_S1x3200000_1_0) shapeCasts_S1x3200000_S3200000⟩, ⟨S100000, iotaInDim S100000 32 0⟩] concatenates_S3200000_S100000_S3300000_d0

/-- Node numbers as gather positions: a negative one is moved up by the number of nodes; one position per row. -/
def positions (v : (⟨S3300000, .i32⟩ : BufTy).Contents (Elt F)) : (⟨S3300000x1, .i32⟩ : BufTy).Contents (Elt F) :=
  broadcastInDim S3300000x1 ![0] bcast_S3300000_S3300000x1_0
    (select (cmpi .slt v (broadcastInDim S3300000 ![] bcast_S_S3300000 (constantI S_ 32 0#32)))
      (addi v (broadcastInDim S3300000 ![] bcast_S_S3300000 (constantI S_ 32 100000#32))) v)

/-- Each node's number of incoming entries: ones added up at the targets. -/
def degree (d : (⟨S3300000, .i32⟩ : BufTy).Contents (Elt F)) : (⟨S100000, .f32⟩ : BufTy).Contents (Elt F) :=
  Host.scatterAdd scatter_S100000_S3300000x1_S3300000_n_0_0_1 (broadcastInDim S100000 ![] bcast_S_S100000 (constant S_ .f32 0x00000000#32))
    (broadcastInDim S3300000x1 ![0] bcast_S3300000_S3300000x1_0 d) (broadcastInDim S3300000 ![] bcast_S_S3300000 (constant S_ .f32 0x3F800000#32))

/-- deg^(-1/2) where the degree is positive, zero elsewhere. -/
def invSqrtDeg (d : (⟨S3300000, .i32⟩ : BufTy).Contents (Elt F)) : (⟨S100000, .f32⟩ : BufTy).Contents (Elt F) :=
  select (cmpf .ogt (degree d) (broadcastInDim S100000 ![] bcast_S_S100000 (constant S_ .f32 0x00000000#32))) (Host.rsqrt (degree d))
    (broadcastInDim S100000 ![] bcast_S_S100000 (constant S_ .f32 0x00000000#32))

/-- An edge's coefficient: the node value `g` at its source times that at its target. -/
def coef (s d : (⟨S3300000, .i32⟩ : BufTy).Contents (Elt F)) (g : (⟨S100000, .f32⟩ : BufTy).Contents (Elt F)) : (⟨S3300000, .f32⟩ : BufTy).Contents (Elt F) :=
  mulf (Host.gather gather_S100000_S3300000x1_S3300000_n_0_n_n_0_1_1 g (positions s))
    (Host.gather gather_S100000_S3300000x1_S3300000_n_0_n_n_0_1_1 g (positions d))

/-- First layer after its linear map `h`: scaled source rows added up at the targets, plus the bias, then max 0. -/
def hidden (s d : (⟨S3300000, .i32⟩ : BufTy).Contents (Elt F)) (cf : (⟨S3300000, .f32⟩ : BufTy).Contents (Elt F)) (b : (⟨S16, .f32⟩ : BufTy).Contents (Elt F))
    (h : (⟨S100000x16, .f32⟩ : BufTy).Contents (Elt F)) : (⟨S100000x16, .f32⟩ : BufTy).Contents (Elt F) :=
  maximumf
    (addf
      (Host.scatterAdd scatter_S100000x16_S3300000x1_S3300000x16_1_0_0_1 (broadcastInDim S100000x16 ![] bcast_S_S100000x16 (constant S_ .f32 0x00000000#32))
        (broadcastInDim S3300000x1 ![0] bcast_S3300000_S3300000x1_0 d)
        (mulf (Host.gather gather_S100000x16_S3300000x1_S3300000x16_1_0_n_n_0_1_116 h (positions s))
          (broadcastInDim S3300000x16 ![0, 1] bcast_S3300000x1_S3300000x16_0_1 (broadcastInDim S3300000x1 ![0] bcast_S3300000_S3300000x1_0 cf))))
      (broadcastInDim S100000x16 ![0, 1] bcast_S1x16_S100000x16_0_1 (broadcastInDim S1x16 ![1] bcast_S16_S1x16_1 b)))
    (broadcastInDim S100000x16 ![] bcast_S_S100000x16 (constant S_ .f32 0x00000000#32))

/-- Second layer after its linear map `h`: scaled source rows added up at the targets, plus the bias. -/
def logits (s d : (⟨S3300000, .i32⟩ : BufTy).Contents (Elt F)) (cf : (⟨S3300000, .f32⟩ : BufTy).Contents (Elt F)) (b : (⟨S7, .f32⟩ : BufTy).Contents (Elt F))
    (h : (⟨S100000x7, .f32⟩ : BufTy).Contents (Elt F)) : (⟨S100000x7, .f32⟩ : BufTy).Contents (Elt F) :=
  addf
    (Host.scatterAdd scatter_S100000x7_S3300000x1_S3300000x7_1_0_0_1 (broadcastInDim S100000x7 ![] bcast_S_S100000x7 (constant S_ .f32 0x00000000#32))
      (broadcastInDim S3300000x1 ![0] bcast_S3300000_S3300000x1_0 d)
      (mulf (Host.gather gather_S100000x7_S3300000x1_S3300000x7_1_0_n_n_0_1_17 h (positions s))
        (broadcastInDim S3300000x7 ![0, 1] bcast_S3300000x1_S3300000x7_0_1 (broadcastInDim S3300000x1 ![0] bcast_S3300000_S3300000x1_0 cf))))
    (broadcastInDim S100000x7 ![0, 1] bcast_S1x7_S100000x7_0_1 (broadcastInDim S1x7 ![1] bcast_S7_S1x7_1 b))

/-- A row with its maximum (taken from −∞) subtracted. -/
def centred (z : (⟨S100000x7, .f32⟩ : BufTy).Contents (Elt F)) : (⟨S100000x7, .f32⟩ : BufTy).Contents (Elt F) :=
  subf z (broadcastInDim S100000x7 ![0, 1] bcast_S100000x1_S100000x7_0_1 (broadcastInDim S100000x1 ![0] bcast_S100000_S100000x1_0
    (maximumf (broadcastInDim S100000 ![] bcast_S_S100000 (constant S_ .f32 0xFF800000#32))
      (Host.reduce FloatOps.maximumf z (constant S_ .f32 0xFF800000#32) reducesTo_S100000x7_S100000_d1 h_S_))))

/-- Row-wise log-softmax: the centred row minus the logarithm of the sum of its exponentials. -/
def logSoftmax (z : (⟨S100000x7, .f32⟩ : BufTy).Contents (Elt F)) : (⟨S100000x7, .f32⟩ : BufTy).Contents (Elt F) :=
  subf (centred z) (broadcastInDim S100000x7 ![0, 1] bcast_S100000x1_S100000x7_0_1
    (Host.log (broadcastInDim S100000x1 ![0] bcast_S100000_S100000x1_0
      (Host.reduceAdd (Host.exp (centred z)) (constant S_ .f32 0x00000000#32) reducesTo_S100000x7_S100000_d1 h_S_))))

/-- The whole network after its two linear maps: `lin1` makes the first layer's rows from the features, `lin2` the
    second layer's rows from the hidden rows. -/
def network (e : (⟨S2x3200000, .i32⟩ : BufTy).Contents (Elt F)) (b1 : (⟨S16, .f32⟩ : BufTy).Contents (Elt F)) (b2 : (⟨S7, .f32⟩ : BufTy).Contents (Elt F))
    (h1 : (⟨S100000x16, .f32⟩ : BufTy).Contents (Elt F)) (lin2 : (⟨S100000x16, .f32⟩ : BufTy).Contents (Elt F) → (⟨S100000x7, .f32⟩ : BufTy).Contents (Elt F)) : (⟨S100000x7, .f32⟩ : BufTy).Contents (Elt F) :=
  logSoftmax (logits (src e) (dst e) (coef (src e) (dst e) (invSqrtDeg (dst e))) b2
    (lin2 (hidden (src e) (dst e) (coef (src e) (dst e) (invSqrtDeg (dst e))) b1 h1)))

end Cert.Gcn

end
-- ==== Proof.KernelHost.lean ====
/-
  The idealized kernel's host operations, read a stretch at a time.

  Between the launch and the return @main runs seven stretches of host operations around its two pallas_calls. Each
  stretch is read here from an ARBITRARY starting contents `V`: the buffers it fills are the shared functions of
  Spec.lean of the buffers it reads, and every buffer it does not write keeps its contents. The operations are the
  reference's own (the same jnp code lowered twice), so each reading is by unfolding.
-/
import proofs.«140462_j23587960389983_1_alg».proof.Proof.Gen.KernelIdeal.Launch
import proofs.«140462_j23587960389983_1_alg».proof.Proof.Spec
import Idealize.ShloMosaic.Lib.StableHlo.Run

set_option maxRecDepth 16384

noncomputable section

namespace Cert.KernelIdeal.Host

open Cert.KernelIdeal Cert.KernelIdeal.Gen Cert.Gcn
open Idealize.ShloMosaic Idealize.ShloMosaic.TcCoe Idealize.ShloMosaic.StableHlo Idealize.SL.Sem

variable {F : FTy → Type} [FloatOps F]

/-! ## What each stretch writes -/

/-- The buffers the first stretch (the edge list's two columns, the degrees) writes. -/
abbrev written0 : List (Ref sig .tc) := [main_v0, main_v1, main_v2, main_v3, main_v4, main_v5, main_v6, main_cst, main_v7, main_cst_0, main_v8, main_v9, main_v10, main_cst_1, main_v11, main_v12, main_v13, main_cst_2]
theorem writes0 : (hostOps0 : List (HloOp τ sig (Elt F))).Forall fun op => op.writes ⊆ (written0.map (Proc.devRef (τ := τ) .tc)).toFinset := by
  simp only [hostOps0, List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
/-- A buffer the first stretch (the edge list's two columns, the degrees) does not write keeps its contents. -/
theorem kept0 (V : Valuation τ sig (Elt F)) (r : Ref sig .tc) (h : r ∉ written0) :
    StableHlo.after hostOps0 V (Proc.devRef .tc r) = V (Proc.devRef .tc r) :=
  StableHlo.after_of_writes_sub _ V writes0 h

/-- The buffers the stretch of the degree's selection writes. -/
abbrev written0_1 : List (Ref sig .tc) := [main_call0_v0, main_call0_v1, main_v14]
theorem writes0_1 : (hostOps0_1 : List (HloOp τ sig (Elt F))).Forall fun op => op.writes ⊆ (written0_1.map (Proc.devRef (τ := τ) .tc)).toFinset := by
  simp only [hostOps0_1, List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
/-- A buffer the stretch of the degree's selection does not write keeps its contents. -/
theorem kept0_1 (V : Valuation τ sig (Elt F)) (r : Ref sig .tc) (h : r ∉ written0_1) :
    StableHlo.after hostOps0_1 V (Proc.devRef .tc r) = V (Proc.devRef .tc r) :=
  StableHlo.after_of_writes_sub _ V writes0_1 h

/-- The buffers the stretch of the edge coefficients writes. -/
abbrev written0_2 : List (Ref sig .tc) := [main_c, main_v15, main_v16, main_c_3, main_v17, main_v18, main_v19, main_v20, main_v21, main_c_4, main_v22, main_v23, main_c_5, main_v24, main_v25, main_v26, main_v27, main_v28, main_v29]
theorem writes0_2 : (hostOps0_2 : List (HloOp τ sig (Elt F))).Forall fun op => op.writes ⊆ (written0_2.map (Proc.devRef (τ := τ) .tc)).toFinset := by
  simp only [hostOps0_2, List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
/-- A buffer the stretch of the edge coefficients does not write keeps its contents. -/
theorem kept0_2 (V : Valuation τ sig (Elt F)) (r : Ref sig .tc) (h : r ∉ written0_2) :
    StableHlo.after hostOps0_2 V (Proc.devRef .tc r) = V (Proc.devRef .tc r) :=
  StableHlo.after_of_writes_sub _ V writes0_2 h

/-- The buffers the first layer's aggregation writes. -/
abbrev written1 : List (Ref sig .tc) := [main_c_6, main_v31, main_v32, main_c_7, main_v33, main_v34, main_v35, main_v36, main_v37, main_v38, main_v39, main_v40, main_cst_8, main_v41, main_v42, main_v43, main_v44, main_v45, main_v46]
theorem writes1 : (hostOps1 : List (HloOp τ sig (Elt F))).Forall fun op => op.writes ⊆ (written1.map (Proc.devRef (τ := τ) .tc)).toFinset := by
  simp only [hostOps1, List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
/-- A buffer the first layer's aggregation does not write keeps its contents. -/
theorem kept1 (V : Valuation τ sig (Elt F)) (r : Ref sig .tc) (h : r ∉ written1) :
    StableHlo.after hostOps1 V (Proc.devRef .tc r) = V (Proc.devRef .tc r) :=
  StableHlo.after_of_writes_sub _ V writes1 h

/-- The buffers the first layer's maximum with zero writes. -/
abbrev written1_1 : List (Ref sig .tc) := [main_call1_cst, main_call1_v0, main_v47]
theorem writes1_1 : (hostOps1_1 : List (HloOp τ sig (Elt F))).Forall fun op => op.writes ⊆ (written1_1.map (Proc.devRef (τ := τ) .tc)).toFinset := by
  simp only [hostOps1_1, List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
/-- A buffer the first layer's maximum with zero does not write keeps its contents. -/
theorem kept1_1 (V : Valuation τ sig (Elt F)) (r : Ref sig .tc) (h : r ∉ written1_1) :
    StableHlo.after hostOps1_1 V (Proc.devRef .tc r) = V (Proc.devRef .tc r) :=
  StableHlo.after_of_writes_sub _ V writes1_1 h

/-- The buffers the second layer's aggregation writes. -/
abbrev written2 : List (Ref sig .tc) := [main_c_9, main_v49, main_v50, main_c_10, main_v51, main_v52, main_v53, main_v54, main_v55, main_v56, main_v57, main_v58, main_cst_11, main_v59, main_v60, main_v61, main_v62, main_v63, main_v64]
theorem writes2 : (hostOps2 : List (HloOp τ sig (Elt F))).Forall fun op => op.writes ⊆ (written2.map (Proc.devRef (τ := τ) .tc)).toFinset := by
  simp only [hostOps2, List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
/-- A buffer the second layer's aggregation does not write keeps its contents. -/
theorem kept2 (V : Valuation τ sig (Elt F)) (r : Ref sig .tc) (h : r ∉ written2) :
    StableHlo.after hostOps2 V (Proc.devRef .tc r) = V (Proc.devRef .tc r) :=
  StableHlo.after_of_writes_sub _ V writes2 h

/-- The buffers the log-softmax writes. -/
abbrev written2_1 : List (Ref sig .tc) := [main_call2_cst, main_call2_v0, main_call2_cst_0, main_call2_v1, main_call2_v2, main_call2_v3, main_call2_v4, main_call2_v5, main_call2_v6, main_call2_cst_1, main_call2_v7, main_call2_v8, main_call2_v9, main_call2_v10, main_v65]
theorem writes2_1 : (hostOps2_1 : List (HloOp τ sig (Elt F))).Forall fun op => op.writes ⊆ (written2_1.map (Proc.devRef (τ := τ) .tc)).toFinset := by
  simp only [hostOps2_1, List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
/-- A buffer the log-softmax does not write keeps its contents. -/
theorem kept2_1 (V : Valuation τ sig (Elt F)) (r : Ref sig .tc) (h : r ∉ written2_1) :
    StableHlo.after hostOps2_1 V (Proc.devRef .tc r) = V (Proc.devRef .tc r) :=
  StableHlo.after_of_writes_sub _ V writes2_1 h

/-! ## What each stretch computes -/

/-- After the first two stretches: the source column. -/
theorem sources (V : Valuation τ sig (Elt F)) :
    after hostOps0_1 (after hostOps0 V) (Proc.devRef .tc main_v3) = src (V (Proc.devRef .tc main_arg1)) := by
  dsimp only [hostOps0, hostOps0_1]
  after_results
  rfl

/-- After the first two stretches: the target column. -/
theorem targets (V : Valuation τ sig (Elt F)) :
    after hostOps0_1 (after hostOps0 V) (Proc.devRef .tc main_v6) = dst (V (Proc.devRef .tc main_arg1)) := by
  dsimp only [hostOps0, hostOps0_1]
  after_results
  rfl

set_option maxHeartbeats 8000000 in
/-- After the first two stretches: each node's degree to the power −1/2, zero where the degree is not positive. -/
theorem node_scale (V : Valuation τ sig (Elt F)) :
    after hostOps0_1 (after hostOps0 V) (Proc.devRef .tc main_v14) = invSqrtDeg (dst (V (Proc.devRef .tc main_arg1))) := by
  dsimp only [hostOps0, hostOps0_1]
  after_results
  rfl

set_option maxHeartbeats 8000000 in
/-- The third stretch: the edge coefficients from the two columns and the node values. -/
theorem edge_coef (V : Valuation τ sig (Elt F)) :
    after hostOps0_2 V (Proc.devRef .tc main_v29)
      = coef (V (Proc.devRef .tc main_v3)) (V (Proc.devRef .tc main_v6)) (V (Proc.devRef .tc main_v14)) := by
  dsimp only [hostOps0_2]
  after_results
  rfl

set_option maxHeartbeats 8000000 in
/-- The two stretches after the first pallas_call: the hidden rows from that call's result. -/
theorem hidden_rows (V : Valuation τ sig (Elt F)) :
    after hostOps1_1 (after hostOps1 V) (Proc.devRef .tc main_v47)
      = hidden (V (Proc.devRef .tc main_v3)) (V (Proc.devRef .tc main_v6)) (V (Proc.devRef .tc main_v29))
          (V (Proc.devRef .tc main_arg3)) (V (Proc.devRef .tc main_v30)) := by
  dsimp only [hostOps1, hostOps1_1]
  after_results
  rfl

end Cert.KernelIdeal.Host

end
-- ==== Proof.KernelOutput.lean ====
/-
  The idealized kernel's last two stretches of host operations: the second layer's aggregation, then the log-softmax.

  Read from an ARBITRARY starting contents `V`: the first of the two fills the logits' buffer with `logits` of
  Spec.lean of the edge data, the second bias and the second pallas_call's result; the second reads only that buffer and
  fills the result with its `logSoftmax`.
-/
import proofs.«140462_j23587960389983_1_alg».proof.Proof.Gen.KernelIdeal.Launch
import proofs.«140462_j23587960389983_1_alg».proof.Proof.Spec
import Idealize.ShloMosaic.Lib.StableHlo.Run

set_option maxRecDepth 16384

noncomputable section

namespace Cert.KernelIdeal.Host

open Cert.KernelIdeal Cert.KernelIdeal.Gen Cert.Gcn
open Idealize.ShloMosaic Idealize.ShloMosaic.TcCoe Idealize.ShloMosaic.StableHlo Idealize.SL.Sem

variable {F : FTy → Type} [FloatOps F]

set_option maxHeartbeats 8000000 in
/-- The second layer's aggregation: the logits from the second pallas_call's result. -/
theorem logit_rows (V : Valuation τ sig (Elt F)) :
    after hostOps2 V (Proc.devRef .tc main_v64)
      = logits (V (Proc.devRef .tc main_v3)) (V (Proc.devRef .tc main_v6)) (V (Proc.devRef .tc main_v29))
          (V (Proc.devRef .tc main_arg5)) (V (Proc.devRef .tc main_v48)) := by
  dsimp only [hostOps2]
  after_results
  rfl

set_option maxHeartbeats 8000000 in
/-- The last stretch: the row-wise log-softmax of the logits' buffer. -/
theorem softmax_rows (V : Valuation τ sig (Elt F)) :
    after hostOps2_1 V (Proc.devRef .tc main_v65) = logSoftmax (V (Proc.devRef .tc main_v64)) := by
  dsimp only [hostOps2_1]
  after_results
  simp only [TRef.ofBuf, TRef.toBuf, cast_eq]
  rfl

/-- The two stretches after the second pallas_call: the log-softmax of the logits from that call's result. -/
theorem output_rows (V : Valuation τ sig (Elt F)) :
    after hostOps2_1 (after hostOps2 V) (Proc.devRef .tc main_v65)
      = logSoftmax (logits (V (Proc.devRef .tc main_v3)) (V (Proc.devRef .tc main_v6)) (V (Proc.devRef .tc main_v29))
          (V (Proc.devRef .tc main_arg5)) (V (Proc.devRef .tc main_v48))) :=
  (softmax_rows (after hostOps2 V)).trans (congrArg logSoftmax (logit_rows V))

end Cert.KernelIdeal.Host

end
-- ==== Proof.LibRowsTimes.lean ====
/-
  The product of two arrays, entry by entry, on the extended reals — general in the extents M, K, N.

  For `a` of shape [M, K] and `w` of shape [K, N] the product `rowsTimes a w` has, at (r, j), the sum over `k` of
  `a (r, k) · w (k, j)`. Three facts:

  * `rowsTimes_of_rows` — rows of a product are products of rows: if a block `a'` of shape [R, K] holds, at its row
    `j 0`, what `a` holds at row `i 0` (and `w'` at column `j 1` what `w` holds at column `i 1`), then `a' · w'`
    at `j` is `a · w` at `i`. This is why a product computed one block of rows at a time is the whole product.
  * `contraction_eq` — a contraction over ONE axis of extent K (how a matrix unit's product into a zero
    accumulator, and the host's `dot_general`, read on the extended reals: a sum over the contraction index of
    left-operand × right-operand entries) is `rowsTimes`, once the contraction index is renamed by its one
    coordinate and the two operand indices are shown to be (row, k) and (k, column).
  * `relu` — the maximum with zero, entry by entry, the zero spelt as the f32 word 0x00000000.

  No finiteness is needed anywhere: both sides of every equation are the same sum of the same products in the
  same order.
-/
import Idealize.ShloMosaic.PureOps.Ideal.Laws
import Idealize.ShloMosaic.Lib.ValueIdx

noncomputable section

namespace Cert.Dense

open Idealize.ShloMosaic Idealize.ShloMosaic.ValueIdx

/-- `(a · w) (r, j) = ∑ k, a (r, k) · w (k, j)`. -/
def rowsTimes {M K N : Nat} (a : (⟨2, ![M, K]⟩ : Shape).Idx → EReal) (w : (⟨2, ![K, N]⟩ : Shape).Idx → EReal) :
    (⟨2, ![M, N]⟩ : Shape).Idx → EReal :=
  fun i => ∑ k : Fin K, a (ix2 (i 0 : Fin M) k) * w (ix2 k (i 1 : Fin N))

/-- The rectifier `x ↦ max x 0`, entry by entry (the zero spelt as the f32 word both programs print it as: the
    same word on both sides, never evaluated). -/
def relu {S : Shape} (x : S.Idx → EReal) : S.Idx → EReal :=
  fun i => max (x i) (Ideal.ofBits .f32 0x00000000#32)

/-- Rows of a product are the products of rows: where `a'` at row `j 0` is `a` at row `i 0`, and `w'` at column
    `j 1` is `w` at column `i 1`, the two products agree at `j` and `i`. -/
theorem rowsTimes_of_rows {M R K N N' : Nat} (a : (⟨2, ![M, K]⟩ : Shape).Idx → EReal) (w : (⟨2, ![K, N]⟩ : Shape).Idx → EReal)
    (a' : (⟨2, ![R, K]⟩ : Shape).Idx → EReal) (w' : (⟨2, ![K, N']⟩ : Shape).Idx → EReal)
    (j : (⟨2, ![R, N']⟩ : Shape).Idx) (i : (⟨2, ![M, N]⟩ : Shape).Idx)
    (ha : ∀ k : Fin K, a' (ix2 (j 0 : Fin R) k) = a (ix2 (i 0 : Fin M) k))
    (hw : ∀ k : Fin K, w' (ix2 k (j 1 : Fin N')) = w (ix2 k (i 1 : Fin N))) :
    rowsTimes a' w' j = rowsTimes a w i :=
  Finset.sum_congr rfl fun k _ => by rw [ha k, hw k]

/-- A contraction over one axis of extent `K` whose left index at (i, q) is (i 0, q) and whose right index is
    (q, i 1) is the product above: the contraction index renamed by its one coordinate. -/
theorem contraction_eq {M K N : Nat} {sl sr so : Shape} (d : DotDims sl sr so) (hr : d.contr.rank = 1)
    (hs : d.contr.size ⟨0, by omega⟩ = K)
    (a : (⟨2, ![M, K]⟩ : Shape).Idx → EReal) (w : (⟨2, ![K, N]⟩ : Shape).Idx → EReal)
    (l : sl.Idx → EReal) (r : sr.Idx → EReal) (i : so.Idx) (i' : (⟨2, ![M, N]⟩ : Shape).Idx)
    (hl : ∀ k : Fin K, l (d.lhsIdx i ((contrEquiv1 d K hr hs).symm k)) = a (ix2 (i' 0 : Fin M) k))
    (hw : ∀ k : Fin K, r (d.rhsIdx i ((contrEquiv1 d K hr hs).symm k)) = w (ix2 k (i' 1 : Fin N))) :
    ∑ q : d.contr.Idx, l (d.lhsIdx i q) * r (d.rhsIdx i q) = rowsTimes a w i' := by
  rw [← Equiv.sum_comp (contrEquiv1 d K hr hs).symm]
  exact Finset.sum_congr rfl fun k _ => by rw [hl k, hw k]

end Cert.Dense

end
-- ==== Proof.LibRowsCols.lean ====
/-
  A contraction of a [R, K] array with a [K, N] array over their one shared axis, read at an entry.

  Both the matrix unit's product into a zero accumulator (the kernel's `tpu.matmul`) and the host's
  `dot_general` are, on the extended reals, the sum over the contraction index of left entry × right entry.
  When the record's left operand index at output (r, j) and contraction position k is (r, k), and the right one
  is (k, j), that sum is `rowsTimes a w (r, j) = ∑ k, a (r, k) · w (k, j)`. A change of float format is the
  identity on the extended reals, so the kernel's casts of its operands to bf16 do not appear.

  Only commutative-monoid facts about the sum are used: nothing here needs the entries to be finite.
-/
import Idealize.ShloMosaic.PureOps.Ideal.Laws
import Idealize.ShloMosaic.Lib.ValueIdx
import proofs.«140462_j23587960389983_1_alg».proof.Proof.LibRowsTimes

noncomputable section

namespace Cert.Dense

open Idealize.ShloMosaic Idealize.ShloMosaic.ValueIdx

variable {R K N : Nat} (d : DotDims ⟨2, ![R, K]⟩ ⟨2, ![K, N]⟩ ⟨2, ![R, N]⟩)

/-- The record contracts ONE axis, of extent `K`, and its operand indices at output index `j` and contraction
    position `k` are (j 0, k) on the left and (k, j 1) on the right: "rows times columns". -/
structure RowsCols : Prop where
  rank : d.contr.rank = 1
  size : d.contr.size ⟨0, by omega⟩ = K
  l0 : ∀ (j : (⟨2, ![R, N]⟩ : Shape).Idx) (k : d.contr.Idx), (d.lhsIdx j k 0).val = (j 0).val
  l1 : ∀ (j : (⟨2, ![R, N]⟩ : Shape).Idx) (k : d.contr.Idx), (d.lhsIdx j k 1).val = (k ⟨0, by omega⟩).val
  r0 : ∀ (j : (⟨2, ![R, N]⟩ : Shape).Idx) (k : d.contr.Idx), (d.rhsIdx j k 0).val = (k ⟨0, by omega⟩).val
  r1 : ∀ (j : (⟨2, ![R, N]⟩ : Shape).Idx) (k : d.contr.Idx), (d.rhsIdx j k 1).val = (j 1).val

variable {d}

/-- The left operand index, with the contraction position named by its one coordinate `k`, is (j 0, k). -/
theorem RowsCols.lhs (h : RowsCols d) (j : (⟨2, ![R, N]⟩ : Shape).Idx) (k : Fin K) :
    d.lhsIdx j ((contrEquiv1 d K h.rank h.size).symm k) = ix2 (j 0 : Fin R) k := by
  funext x; apply Fin.ext
  match x with
  | ⟨0, _⟩ => exact h.l0 j _
  | ⟨1, _⟩ => exact (h.l1 j _).trans (contrEquiv1_symm_val d K h.rank h.size k)

/-- The right operand index, likewise, is (k, j 1). -/
theorem RowsCols.rhs (h : RowsCols d) (j : (⟨2, ![R, N]⟩ : Shape).Idx) (k : Fin K) :
    d.rhsIdx j ((contrEquiv1 d K h.rank h.size).symm k) = ix2 k (j 1 : Fin N) := by
  funext x; apply Fin.ext
  match x with
  | ⟨0, _⟩ => exact (h.r0 j _).trans (contrEquiv1_symm_val d K h.rank h.size k)
  | ⟨1, _⟩ => exact h.r1 j _

/-- The matrix unit's product of `a` and `w` into the zero accumulator, at (r, j), is `∑ k, a (r, k) · w (k, j)`;
    the operands' float formats are whatever they are (a format is not seen on the extended reals). -/
theorem matmul_zero_apply (h : RowsCols d) (prec : Option ContractPrecision) {φ₁ φ₂ : FTy}
    (a : FVec Ideal ⟨2, ![R, K]⟩ φ₁) (w : FVec Ideal ⟨2, ![K, N]⟩ φ₂) (j : (⟨2, ![R, N]⟩ : Shape).Idx) :
    FloatOps.matmul d prec a w (constant (F := Ideal) ⟨2, ![R, N]⟩ .f32 0x00000000#32) j = rowsTimes a w j := by
  rw [Ideal.matmul_constant_zero_apply]
  exact contraction_eq d h.rank h.size a w a w j j (fun k => congrArg a (h.lhs j k)) (fun k => congrArg w (h.rhs j k))

/-- The host's `dot_general` of `a` and `w`, at (r, j), is the same sum. -/
theorem dotGeneral_apply (h : RowsCols d) (prec : Option ContractPrecision) {φ₁ φ₂ : FTy}
    (a : FVec Ideal ⟨2, ![R, K]⟩ φ₁) (w : FVec Ideal ⟨2, ![K, N]⟩ φ₂) (j : (⟨2, ![R, N]⟩ : Shape).Idx) :
    Host.dotGeneral d prec a w j = rowsTimes a w j := by
  show FloatOps.dotGeneral d prec .single a w j = _
  rw [Ideal.dotGeneral_apply]
  exact contraction_eq d h.rank h.size a w a w j j (fun k => congrArg a (h.lhs j k)) (fun k => congrArg w (h.rhs j k))

/-- So the host's `dot_general` of two whole arrays IS their product, as one function. -/
theorem dotGeneral_eq (h : RowsCols d) (prec : Option ContractPrecision) {φ₁ φ₂ : FTy}
    (a : FVec Ideal ⟨2, ![R, K]⟩ φ₁) (w : FVec Ideal ⟨2, ![K, N]⟩ φ₂) :
    Host.dotGeneral d prec a w = rowsTimes a w := funext (dotGeneral_apply h prec a w)

end Cert.Dense

end
-- ==== Proof.Products.lean ====
/-
  The two dense layers' contractions, read on the extended reals.

  Each layer multiplies a tall array by a small weight array. The kernel does it a block of rows at a time on the
  matrix unit, from operands narrowed to bf16 and into a zero accumulator; the reference does it in one host
  `dot_general`. On the extended reals a change of float format is the identity, and both contractions are the sum
  over the shared axis of left entry × right entry: the array `rowsTimes a w`, whose (r, j) entry is
  ∑ k, a (r, k) · w (k, j). Stated here, for each of the four printed contraction records, is that its operand
  indices are (row, k) and (k, column), and from it what each block computes and what each host product is.
-/
import proofs.«140462_j23587960389983_1_alg».proof.Proof.Gen.KernelIdeal.Skeleton
import proofs.«140462_j23587960389983_1_alg».proof.Proof.Gen.ReferenceIdeal
import proofs.«140462_j23587960389983_1_alg».proof.Proof.LibRowsCols
import Idealize.ShloMosaic.Lib.Pipeline.Value

noncomputable section

namespace Cert.Gcn

open Idealize.ShloMosaic Idealize.ShloMosaic.ValueIdx Cert.Dense

/-! ## The kernel's two matrix-unit records -/

section Kernel
open Cert.KernelIdeal Cert.KernelIdeal.Gen

/-- First layer's block product, [1000, 1433] × [1433, 16]: rows times columns. -/
theorem rowsCols_block1 : RowsCols dot_S1000x1433_S1433x16_S1000x16_1_0_0_1_n_n where
  rank := rfl
  size := rfl
  l0 := fun j q => by
    unfold DotDims.lhsIdx
    rw [dif_neg (show ¬(0 : Fin S1000x1433.rank) ∈ dot_S1000x1433_S1433x16_S1000x16_1_0_0_1_n_n.lhsBatch by decide),
      dif_pos (show (0 : Fin S1000x1433.rank) ∈ dot_S1000x1433_S1433x16_S1000x16_1_0_0_1_n_n.lhsNonContracting by decide)]
    rfl
  l1 := fun j q => dot_S1000x1433_S1433x16_S1000x16_1_0_0_1_n_n.lhsIdx_val_of_single rfl j q
  r0 := fun j q => dot_S1000x1433_S1433x16_S1000x16_1_0_0_1_n_n.rhsIdx_val_of_single rfl j q
  r1 := fun j q => by
    unfold DotDims.rhsIdx
    rw [dif_neg (show ¬(1 : Fin S1433x16.rank) ∈ dot_S1000x1433_S1433x16_S1000x16_1_0_0_1_n_n.rhsBatch by decide),
      dif_pos (show (1 : Fin S1433x16.rank) ∈ dot_S1000x1433_S1433x16_S1000x16_1_0_0_1_n_n.rhsNonContracting by decide)]
    rfl

/-- Second layer's block product, [2000, 16] × [16, 7]: rows times columns. -/
theorem rowsCols_block2 : RowsCols dot_S2000x16_S16x7_S2000x7_1_0_0_1_n_n where
  rank := rfl
  size := rfl
  l0 := fun j q => by
    unfold DotDims.lhsIdx
    rw [dif_neg (show ¬(0 : Fin S2000x16.rank) ∈ dot_S2000x16_S16x7_S2000x7_1_0_0_1_n_n.lhsBatch by decide),
      dif_pos (show (0 : Fin S2000x16.rank) ∈ dot_S2000x16_S16x7_S2000x7_1_0_0_1_n_n.lhsNonContracting by decide)]
    rfl
  l1 := fun j q => dot_S2000x16_S16x7_S2000x7_1_0_0_1_n_n.lhsIdx_val_of_single rfl j q
  r0 := fun j q => dot_S2000x16_S16x7_S2000x7_1_0_0_1_n_n.rhsIdx_val_of_single rfl j q
  r1 := fun j q => by
    unfold DotDims.rhsIdx
    rw [dif_neg (show ¬(1 : Fin S16x7.rank) ∈ dot_S2000x16_S16x7_S2000x7_1_0_0_1_n_n.rhsBatch by decide),
      dif_pos (show (1 : Fin S16x7.rank) ∈ dot_S2000x16_S16x7_S2000x7_1_0_0_1_n_n.rhsNonContracting by decide)]
    rfl

/-- What the first layer's body stores from its two loaded blocks: their product (the narrowing to bf16 is the
    identity on the extended reals, the accumulator starts at zero). -/
theorem block1_eq (x : Vec Ideal S1000x1433 .f32) (w : Vec Ideal S1433x16 .f32) :
    k0_pay1 (F := Ideal) x w = rowsTimes x w :=
  funext fun j => matmul_zero_apply rowsCols_block1 none x w j

/-- What the second layer's body stores from its two loaded blocks: their product (the shape cast is to the same
    shape). -/
theorem block2_eq (x : Vec Ideal S2000x16 .f32) (w : Vec Ideal S16x7 .f32) :
    k1_pay1 (F := Ideal) x w = rowsTimes x w := by
  unfold k1_pay1
  rw [shapeCast_self]
  exact funext fun j => matmul_zero_apply rowsCols_block2 none x w j

end Kernel

/-! ## The reference's two host contractions -/

section Reference
open Cert.ReferenceIdeal Cert.ReferenceIdeal.Gen

/-- First layer on the host, [100000, 1433] × [1433, 16]: rows times columns. -/
theorem rowsCols_host1 : RowsCols dot_S100000x1433_S1433x16_S100000x16_1_0_0_1_n_n where
  rank := rfl
  size := rfl
  l0 := fun j q => by
    unfold DotDims.lhsIdx
    rw [dif_neg (show ¬(0 : Fin S100000x1433.rank) ∈ dot_S100000x1433_S1433x16_S100000x16_1_0_0_1_n_n.lhsBatch by decide),
      dif_pos (show (0 : Fin S100000x1433.rank) ∈ dot_S100000x1433_S1433x16_S100000x16_1_0_0_1_n_n.lhsNonContracting by decide)]
    rfl
  l1 := fun j q => dot_S100000x1433_S1433x16_S100000x16_1_0_0_1_n_n.lhsIdx_val_of_single rfl j q
  r0 := fun j q => dot_S100000x1433_S1433x16_S100000x16_1_0_0_1_n_n.rhsIdx_val_of_single rfl j q
  r1 := fun j q => by
    unfold DotDims.rhsIdx
    rw [dif_neg (show ¬(1 : Fin S1433x16.rank) ∈ dot_S100000x1433_S1433x16_S100000x16_1_0_0_1_n_n.rhsBatch by decide),
      dif_pos (show (1 : Fin S1433x16.rank) ∈ dot_S100000x1433_S1433x16_S100000x16_1_0_0_1_n_n.rhsNonContracting by decide)]
    rfl

/-- Second layer on the host, [100000, 16] × [16, 7]: rows times columns. -/
theorem rowsCols_host2 : RowsCols dot_S100000x16_S16x7_S100000x7_1_0_0_1_n_n where
  rank := rfl
  size := rfl
  l0 := fun j q => by
    unfold DotDims.lhsIdx
    rw [dif_neg (show ¬(0 : Fin S100000x16.rank) ∈ dot_S100000x16_S16x7_S100000x7_1_0_0_1_n_n.lhsBatch by decide),
      dif_pos (show (0 : Fin S100000x16.rank) ∈ dot_S100000x16_S16x7_S100000x7_1_0_0_1_n_n.lhsNonContracting by decide)]
    rfl
  l1 := fun j q => dot_S100000x16_S16x7_S100000x7_1_0_0_1_n_n.lhsIdx_val_of_single rfl j q
  r0 := fun j q => dot_S100000x16_S16x7_S100000x7_1_0_0_1_n_n.rhsIdx_val_of_single rfl j q
  r1 := fun j q => by
    unfold DotDims.rhsIdx
    rw [dif_neg (show ¬(1 : Fin S16x7.rank) ∈ dot_S100000x16_S16x7_S100000x7_1_0_0_1_n_n.rhsBatch by decide),
      dif_pos (show (1 : Fin S16x7.rank) ∈ dot_S100000x16_S16x7_S100000x7_1_0_0_1_n_n.rhsNonContracting by decide)]
    rfl

/-- The reference's first linear layer is the product of its two operands. -/
theorem host1_eq (x : FVec Ideal S100000x1433 .f32) (w : FVec Ideal S1433x16 .f32) :
    Host.dotGeneral dot_S100000x1433_S1433x16_S100000x16_1_0_0_1_n_n none x w = rowsTimes x w :=
  dotGeneral_eq rowsCols_host1 none x w

/-- The reference's second linear layer is the product of its two operands. -/
theorem host2_eq (x : FVec Ideal S100000x16 .f32) (w : FVec Ideal S16x7 .f32) :
    Host.dotGeneral dot_S100000x16_S16x7_S100000x7_1_0_0_1_n_n none x w = rowsTimes x w :=
  dotGeneral_eq rowsCols_host2 none x w

end Reference

end Cert.Gcn

end
-- ==== Proof.Layer1Blocks.lean ====
/-
  The first layer's pallas_call leaves the product of the features and the first weights.

  The pallas_call walks the 100 blocks of 1000 rows of the left array in order. At point t it loads rows
  1000·t … 1000·t + 999 of the left array and the whole [1433, 16] weight array, and writes their product back
  as rows 1000·t … of the result. Rows of a product are products of rows, so that block is the same rows of the whole
  product; the 100 blocks tile the 100000 rows, so the result array ends as the whole product — whatever the
  buffers held when the call was entered (`V`).
-/
import proofs.«140462_j23587960389983_1_alg».proof.Proof.Gen.KernelIdeal.Frame
import proofs.«140462_j23587960389983_1_alg».proof.Proof.Products
import Idealize.ShloMosaic.Lib.Pipeline.Value
import Idealize.ShloMosaic.Lib.Tactic

set_option maxRecDepth 16384

noncomputable section

namespace Cert.KernelIdeal.Layer1

open Cert.KernelIdeal Cert.KernelIdeal.Gen Cert.Dense Cert.Gcn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The printed block-index maps over the grid: the left and result windows are at block row t, the weight window
    stays at its one block. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT t WRITES BACK is block t of the whole product of the two arrays the call reads. -/
theorem flushed_eq (c : Dev nD) (t : Fin cfg0.N) :
    (dat0 V c).flushed 2 t = ((cfg0.win 2).blk t).view.read (Elt Ideal)
      (rowsTimes (M := 100000) (K := 1433) (N := 16) (V c main_arg0) (V c main_arg2)) := by
  show (cfg0.win 2).cut (grid0.coords t) ((dat0 V c).after 2 t) = _
  rw [after0_2]
  unfold out0_2
  rw [View.canon_unit_zero zero_offsets]
  simp only [View.ld_unit_zero (S := S1000x1433) zero_offsets, View.ld_unit_zero (S := S1433x16) zero_offsets]
  rw [block1_eq]
  obtain ⟨e0, e1, e2, e3, e4, e5⟩ := index_maps t
  funext j
  show rowsTimes (M := 1000) (K := 1433) (N := 16) (iblk0 V c 0 t) (iblk0 V c 1 t) j
    = rowsTimes (M := 100000) (K := 1433) (N := 16) (V c main_arg0) (V c main_arg2) (((cfg0.win 2).blk t).view.emb j)
  refine rowsTimes_of_rows (M := 100000) (R := 1000) (K := 1433) (N := 16) (N' := 16) _ _ _ _ j _ (fun k => ?_) (fun k => ?_)
  · show V c main_arg0 (((cfg0.win 0).blk t).view.emb (ix2 (j 0 : Fin 1000) k)) = V c main_arg0 (ix2 _ k)
    refine congrArg (V c main_arg0) (funext fun a => Fin.ext ?_)
    match a with
    | ⟨0, _⟩ => show win0_0.index t (0 : Fin 2) * 1000 + 1 * (j 0).val = win0_2.index t (0 : Fin 2) * 1000 + 1 * (j 0).val; rw [e0, e4]
    | ⟨1, _⟩ => show win0_0.index t (1 : Fin 2) * 1433 + 1 * k.val = k.val; rw [e1]; omega
  · show V c main_arg2 (((cfg0.win 1).blk t).view.emb (ix2 k (j 1 : Fin 16))) = V c main_arg2 (ix2 k _)
    refine congrArg (V c main_arg2) (funext fun a => Fin.ext ?_)
    match a with
    | ⟨0, _⟩ => show win0_1.index t (0 : Fin 2) * 1433 + 1 * k.val = k.val; rw [e2]; omega
    | ⟨1, _⟩ => show win0_1.index t (1 : Fin 2) * 16 + 1 * (j 1).val = win0_2.index t (1 : Fin 2) * 16 + 1 * (j 1).val; rw [e3, e5]

/-- An index of the result array is in point t's block iff each coordinate is in the block's range on its axis. -/
theorem mem_block (t : Fin cfg0.N) (i : S100000x16.Idx) :
    i ∈ ((cfg0.win 2).blk t).view.set ↔ ∀ a : Fin 2, win0_2.index t a * S1000x16.size a ≤ (i a).val ∧ (i a).val < win0_2.index t a * S1000x16.size a + S1000x16.size a := by
  show i ∈ ((View.whole main_v30).slice (win0_2.rect t)).set ↔ _
  rw [View.set_slice_whole, Rect.mem_set_unit]
  exact Iff.rfl

/-- Every row of the result is in the block of the point that its number divided by 1000 names. -/
theorem covered (i : S100000x16.Idx) : ∃ t : Fin cfg0.N, (cfg0.win 2).flush t = true ∧ i ∈ ((cfg0.win 2).blk t).view.set := by
  have hi0 : (i 0).val < 100000 := (i 0).isLt
  have hi1 : (i 1).val < 16 := (i 1).isLt
  have hN : cfg0.N = 100 := N_0
  obtain ⟨t, ht⟩ : ∃ t : Fin cfg0.N, t.val = (i 0).val / 1000 := ⟨⟨(i 0).val / 1000, by rw [hN]; omega⟩, rfl⟩
  obtain ⟨-, -, -, -, e4, e5⟩ := index_maps t
  refine ⟨t, flush0_2 t, ?_⟩
  rw [mem_block]
  intro a
  match a with
  | ⟨0, _⟩ => show win0_2.index t (0 : Fin 2) * 1000 ≤ (i 0).val ∧ (i 0).val < win0_2.index t (0 : Fin 2) * 1000 + 1000; rw [e4, ht]; omega
  | ⟨1, _⟩ => show win0_2.index t (1 : Fin 2) * 16 ≤ (i 1).val ∧ (i 1).val < win0_2.index t (1 : Fin 2) * 16 + 16; rw [e5]; omega

/-- THE RESULT ARRAY after the call: the whole product of the two arrays the call reads, as the call found them. -/
theorem result_eq (c : Dev nD) :
    (dat0 V c).arrAt 2 cfg0.N = rowsTimes (M := 100000) (K := 1433) (N := 16) (V c main_arg0) (V c main_arg2) :=
  (dat0 V c).arrAt_eq_of_cover 2 _ (fun t _ => flushed_eq V c t) covered

end Cert.KernelIdeal.Layer1

end
-- ==== Proof.Layer2Blocks.lean ====
/-
  The second layer's pallas_call leaves the product of the hidden rows and the second weights.

  The pallas_call walks the 50 blocks of 2000 rows of the left array in order. At point t it loads rows
  2000·t … 2000·t + 1999 of the left array and the whole [16, 7] weight array, and writes their product back
  as rows 2000·t … of the result. Rows of a product are products of rows, so that block is the same rows of the whole
  product; the 50 blocks tile the 100000 rows, so the result array ends as the whole product — whatever the
  buffers held when the call was entered (`V`).
-/
import proofs.«140462_j23587960389983_1_alg».proof.Proof.Gen.KernelIdeal.Frame
import proofs.«140462_j23587960389983_1_alg».proof.Proof.Products
import Idealize.ShloMosaic.Lib.Pipeline.Value
import Idealize.ShloMosaic.Lib.Tactic

set_option maxRecDepth 16384

noncomputable section

namespace Cert.KernelIdeal.Layer2

open Cert.KernelIdeal Cert.KernelIdeal.Gen Cert.Dense Cert.Gcn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The printed block-index maps over the grid: the left and result windows are at block row t, the weight window
    stays at its one block. -/
theorem index_maps : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- WHAT POINT t WRITES BACK is block t of the whole product of the two arrays the call reads. -/
theorem flushed_eq (c : Dev nD) (t : Fin cfg1.N) :
    (dat1 V c).flushed 2 t = ((cfg1.win 2).blk t).view.read (Elt Ideal)
      (rowsTimes (M := 100000) (K := 16) (N := 7) (V c main_v47) (V c main_arg4)) := by
  show (cfg1.win 2).cut (grid1.coords t) ((dat1 V c).after 2 t) = _
  rw [after1_2]
  unfold out1_2
  rw [View.canon_unit_zero zero_offsets]
  simp only [View.ld_unit_zero (S := S2000x16) zero_offsets, View.ld_unit_zero (S := S16x7) zero_offsets]
  rw [block2_eq]
  obtain ⟨e0, e1, e2, e3, e4, e5⟩ := index_maps t
  funext j
  show rowsTimes (M := 2000) (K := 16) (N := 7) (iblk1 V c 0 t) (iblk1 V c 1 t) j
    = rowsTimes (M := 100000) (K := 16) (N := 7) (V c main_v47) (V c main_arg4) (((cfg1.win 2).blk t).view.emb j)
  refine rowsTimes_of_rows (M := 100000) (R := 2000) (K := 16) (N := 7) (N' := 7) _ _ _ _ j _ (fun k => ?_) (fun k => ?_)
  · show V c main_v47 (((cfg1.win 0).blk t).view.emb (ix2 (j 0 : Fin 2000) k)) = V c main_v47 (ix2 _ k)
    refine congrArg (V c main_v47) (funext fun a => Fin.ext ?_)
    match a with
    | ⟨0, _⟩ => show win1_0.index t (0 : Fin 2) * 2000 + 1 * (j 0).val = win1_2.index t (0 : Fin 2) * 2000 + 1 * (j 0).val; rw [e0, e4]
    | ⟨1, _⟩ => show win1_0.index t (1 : Fin 2) * 16 + 1 * k.val = k.val; rw [e1]; omega
  · show V c main_arg4 (((cfg1.win 1).blk t).view.emb (ix2 k (j 1 : Fin 7))) = V c main_arg4 (ix2 k _)
    refine congrArg (V c main_arg4) (funext fun a => Fin.ext ?_)
    match a with
    | ⟨0, _⟩ => show win1_1.index t (0 : Fin 2) * 16 + 1 * k.val = k.val; rw [e2]; omega
    | ⟨1, _⟩ => show win1_1.index t (1 : Fin 2) * 7 + 1 * (j 1).val = win1_2.index t (1 : Fin 2) * 7 + 1 * (j 1).val; rw [e3, e5]

/-- An index of the result array is in point t's block iff each coordinate is in the block's range on its axis. -/
theorem mem_block (t : Fin cfg1.N) (i : S100000x7.Idx) :
    i ∈ ((cfg1.win 2).blk t).view.set ↔ ∀ a : Fin 2, win1_2.index t a * S2000x7.size a ≤ (i a).val ∧ (i a).val < win1_2.index t a * S2000x7.size a + S2000x7.size a := by
  show i ∈ ((View.whole main_v48).slice (win1_2.rect t)).set ↔ _
  rw [View.set_slice_whole, Rect.mem_set_unit]
  exact Iff.rfl

/-- Every row of the result is in the block of the point that its number divided by 2000 names. -/
theorem covered (i : S100000x7.Idx) : ∃ t : Fin cfg1.N, (cfg1.win 2).flush t = true ∧ i ∈ ((cfg1.win 2).blk t).view.set := by
  have hi0 : (i 0).val < 100000 := (i 0).isLt
  have hi1 : (i 1).val < 7 := (i 1).isLt
  have hN : cfg1.N = 50 := N_1
  obtain ⟨t, ht⟩ : ∃ t : Fin cfg1.N, t.val = (i 0).val / 2000 := ⟨⟨(i 0).val / 2000, by rw [hN]; omega⟩, rfl⟩
  obtain ⟨-, -, -, -, e4, e5⟩ := index_maps t
  refine ⟨t, flush1_2 t, ?_⟩
  rw [mem_block]
  intro a
  match a with
  | ⟨0, _⟩ => show win1_2.index t (0 : Fin 2) * 2000 ≤ (i 0).val ∧ (i 0).val < win1_2.index t (0 : Fin 2) * 2000 + 2000; rw [e4, ht]; omega
  | ⟨1, _⟩ => show win1_2.index t (1 : Fin 2) * 7 ≤ (i 1).val ∧ (i 1).val < win1_2.index t (1 : Fin 2) * 7 + 7; rw [e5]; omega

/-- THE RESULT ARRAY after the call: the whole product of the two arrays the call reads, as the call found them. -/
theorem result_eq (c : Dev nD) :
    (dat1 V c).arrAt 2 cfg1.N = rowsTimes (M := 100000) (K := 16) (N := 7) (V c main_v47) (V c main_arg4) :=
  (dat1 V c).arrAt_eq_of_cover 2 _ (fun t _ => flushed_eq V c t) covered

end Cert.KernelIdeal.Layer2

end
-- ==== Proof.KernelValue.lean ====
/-
  What the idealized kernel's result buffer ends holding, as one function of the argument arrays.

  The last boundary's contents `W9` is a fold through the nine segments of @main. Reading it at the result buffer, a
  segment at a time and backwards: the log-softmax stretches read the second pallas_call's result and the edge data;
  that result is the product of the hidden rows and the second weights; the hidden rows come from the first
  pallas_call's result, which is the product of the features and the first weights; the edge data (the two columns
  and the coefficients) are made before the first call and no later segment writes them, and no segment writes an
  argument. Composed, the result is `network` of Spec.lean with both linear maps the plain products.
-/
import proofs.«140462_j23587960389983_1_alg».proof.Proof.KernelRun
import proofs.«140462_j23587960389983_1_alg».proof.Proof.KernelHost
import proofs.«140462_j23587960389983_1_alg».proof.Proof.KernelOutput
import proofs.«140462_j23587960389983_1_alg».proof.Proof.Layer1Blocks
import proofs.«140462_j23587960389983_1_alg».proof.Proof.Layer2Blocks

set_option maxRecDepth 16384

noncomputable section

namespace Cert.KernelIdeal.Whole

open Cert.KernelIdeal Cert.KernelIdeal.Gen Cert.KernelIdeal.Host Cert.Gcn Cert.Dense
open Idealize.ShloMosaic Idealize.ShloMosaic.TcCoe Idealize.ShloMosaic.StableHlo Idealize.SL.Sem

variable (m : (ℓ : Loc nD τ sig) → Buf (Elt Ideal) ℓ) (ρ : Dev nD → PrngReg)

/-- The edge list's source column, from the second boundary on. -/
theorem sources_at2 (c : Dev nD) : W2 m ρ c (Proc.devRef .tc main_v3) = src (m ((c : Thread nD τ).loc main_arg1)) := sources (W0 m ρ c)
/-- The edge list's target column, from the second boundary on. -/
theorem targets_at2 (c : Dev nD) : W2 m ρ c (Proc.devRef .tc main_v6) = dst (m ((c : Thread nD τ).loc main_arg1)) := targets (W0 m ρ c)
/-- The node values deg^(-1/2) at the second boundary. -/
theorem node_scale_at2 (c : Dev nD) : W2 m ρ c (Proc.devRef .tc main_v14) = invSqrtDeg (dst (m ((c : Thread nD τ).loc main_arg1))) := node_scale (W0 m ρ c)

/-- The edge coefficients when the first pallas_call is entered. -/
theorem coef_at3 (c : Dev nD) : W3 m ρ c (Proc.devRef .tc main_v29) = coef (src (m ((c : Thread nD τ).loc main_arg1))) (dst (m ((c : Thread nD τ).loc main_arg1))) (invSqrtDeg (dst (m ((c : Thread nD τ).loc main_arg1)))) := by
  refine (edge_coef (W2 m ρ c)).trans ?_
  rw [sources_at2 m ρ c, targets_at2 m ρ c, node_scale_at2 m ρ c]

/-- The first pallas_call's result: the product of the features and the first weights. -/
theorem lin1_at4 (c : Dev nD) : W4 m ρ c (Proc.devRef .tc main_v30) = rowsTimes (M := 100000) (K := 1433) (N := 16) (m ((c : Thread nD τ).loc main_arg0)) (m ((c : Thread nD τ).loc main_arg2)) := by
  refine (W4_arr m ρ c 2).trans ((Layer1.result_eq (V3 m ρ) c).trans ?_)
  have h0 : V3 m ρ c main_arg0 = (m ((c : Thread nD τ).loc main_arg0)) := (kept0_2 (W2 m ρ c) main_arg0 (by decide)).trans ((kept0_1 (W1 m ρ c) main_arg0 (by decide)).trans ((kept0 (W0 m ρ c) main_arg0 (by decide)).trans (rfl)))
  have h2 : V3 m ρ c main_arg2 = (m ((c : Thread nD τ).loc main_arg2)) := (kept0_2 (W2 m ρ c) main_arg2 (by decide)).trans ((kept0_1 (W1 m ρ c) main_arg2 (by decide)).trans ((kept0 (W0 m ρ c) main_arg2 (by decide)).trans (rfl)))
  rw [h0, h2]

/-- The hidden rows when the second pallas_call is entered. -/
theorem hidden_at6 (c : Dev nD) : W6 m ρ c (Proc.devRef .tc main_v47) = hidden (src (m ((c : Thread nD τ).loc main_arg1))) (dst (m ((c : Thread nD τ).loc main_arg1))) (coef (src (m ((c : Thread nD τ).loc main_arg1))) (dst (m ((c : Thread nD τ).loc main_arg1))) (invSqrtDeg (dst (m ((c : Thread nD τ).loc main_arg1))))) (m ((c : Thread nD τ).loc main_arg3)) (rowsTimes (M := 100000) (K := 1433) (N := 16) (m ((c : Thread nD τ).loc main_arg0)) (m ((c : Thread nD τ).loc main_arg2))) := by
  refine (hidden_rows (W4 m ρ c)).trans ?_
  have hs : W4 m ρ c (Proc.devRef .tc main_v3) = src (m ((c : Thread nD τ).loc main_arg1)) := (W4_of_ne m ρ c main_v3 (by decide)).trans ((kept0_2 (W2 m ρ c) main_v3 (by decide)).trans (sources_at2 m ρ c))
  have hd : W4 m ρ c (Proc.devRef .tc main_v6) = dst (m ((c : Thread nD τ).loc main_arg1)) := (W4_of_ne m ρ c main_v6 (by decide)).trans ((kept0_2 (W2 m ρ c) main_v6 (by decide)).trans (targets_at2 m ρ c))
  have hc : W4 m ρ c (Proc.devRef .tc main_v29) = coef (src (m ((c : Thread nD τ).loc main_arg1))) (dst (m ((c : Thread nD τ).loc main_arg1))) (invSqrtDeg (dst (m ((c : Thread nD τ).loc main_arg1)))) := (W4_of_ne m ρ c main_v29 (by decide)).trans (coef_at3 m ρ c)
  have hb : W4 m ρ c (Proc.devRef .tc main_arg3) = (m ((c : Thread nD τ).loc main_arg3)) := (W4_of_ne m ρ c main_arg3 (by decide)).trans ((kept0_2 (W2 m ρ c) main_arg3 (by decide)).trans ((kept0_1 (W1 m ρ c) main_arg3 (by decide)).trans ((kept0 (W0 m ρ c) main_arg3 (by decide)).trans (rfl))))
  rw [hs, hd, hc, hb, lin1_at4 m ρ c]

/-- The second pallas_call's result: the product of the hidden rows and the second weights. -/
theorem lin2_at7 (c : Dev nD) : W7 m ρ c (Proc.devRef .tc main_v48) = rowsTimes (M := 100000) (K := 16) (N := 7) (hidden (src (m ((c : Thread nD τ).loc main_arg1))) (dst (m ((c : Thread nD τ).loc main_arg1))) (coef (src (m ((c : Thread nD τ).loc main_arg1))) (dst (m ((c : Thread nD τ).loc main_arg1))) (invSqrtDeg (dst (m ((c : Thread nD τ).loc main_arg1))))) (m ((c : Thread nD τ).loc main_arg3)) (rowsTimes (M := 100000) (K := 1433) (N := 16) (m ((c : Thread nD τ).loc main_arg0)) (m ((c : Thread nD τ).loc main_arg2)))) (m ((c : Thread nD τ).loc main_arg4)) := by
  refine (W7_arr m ρ c 2).trans ((Layer2.result_eq (V6 m ρ) c).trans ?_)
  have h0 : V6 m ρ c main_v47 = hidden (src (m ((c : Thread nD τ).loc main_arg1))) (dst (m ((c : Thread nD τ).loc main_arg1))) (coef (src (m ((c : Thread nD τ).loc main_arg1))) (dst (m ((c : Thread nD τ).loc main_arg1))) (invSqrtDeg (dst (m ((c : Thread nD τ).loc main_arg1))))) (m ((c : Thread nD τ).loc main_arg3)) (rowsTimes (M := 100000) (K := 1433) (N := 16) (m ((c : Thread nD τ).loc main_arg0)) (m ((c : Thread nD τ).loc main_arg2))) := hidden_at6 m ρ c
  have h2 : V6 m ρ c main_arg4 = (m ((c : Thread nD τ).loc main_arg4)) := (kept1_1 (W5 m ρ c) main_arg4 (by decide)).trans ((kept1 (W4 m ρ c) main_arg4 (by decide)).trans ((W4_of_ne m ρ c main_arg4 (by decide)).trans ((kept0_2 (W2 m ρ c) main_arg4 (by decide)).trans ((kept0_1 (W1 m ρ c) main_arg4 (by decide)).trans ((kept0 (W0 m ρ c) main_arg4 (by decide)).trans (rfl))))))
  rw [h0, h2]

/-- THE RESULT BUFFER at the last boundary: the network of Spec.lean over the two plain products. -/
theorem value (c : Dev nD) : W9 m ρ c (Proc.devRef .tc main_v65)
    = network (m ((c : Thread nD τ).loc main_arg1)) (m ((c : Thread nD τ).loc main_arg3)) (m ((c : Thread nD τ).loc main_arg5)) (rowsTimes (M := 100000) (K := 1433) (N := 16) (m ((c : Thread nD τ).loc main_arg0)) (m ((c : Thread nD τ).loc main_arg2)))
        (fun h => rowsTimes (M := 100000) (K := 16) (N := 7) h (m ((c : Thread nD τ).loc main_arg4))) := by
  refine (output_rows (W7 m ρ c)).trans ?_
  have hs : W7 m ρ c (Proc.devRef .tc main_v3) = src (m ((c : Thread nD τ).loc main_arg1)) := (W7_of_ne m ρ c main_v3 (by decide)).trans ((kept1_1 (W5 m ρ c) main_v3 (by decide)).trans ((kept1 (W4 m ρ c) main_v3 (by decide)).trans ((W4_of_ne m ρ c main_v3 (by decide)).trans ((kept0_2 (W2 m ρ c) main_v3 (by decide)).trans (sources_at2 m ρ c)))))
  have hd : W7 m ρ c (Proc.devRef .tc main_v6) = dst (m ((c : Thread nD τ).loc main_arg1)) := (W7_of_ne m ρ c main_v6 (by decide)).trans ((kept1_1 (W5 m ρ c) main_v6 (by decide)).trans ((kept1 (W4 m ρ c) main_v6 (by decide)).trans ((W4_of_ne m ρ c main_v6 (by decide)).trans ((kept0_2 (W2 m ρ c) main_v6 (by decide)).trans (targets_at2 m ρ c)))))
  have hc : W7 m ρ c (Proc.devRef .tc main_v29) = coef (src (m ((c : Thread nD τ).loc main_arg1))) (dst (m ((c : Thread nD τ).loc main_arg1))) (invSqrtDeg (dst (m ((c : Thread nD τ).loc main_arg1)))) := (W7_of_ne m ρ c main_v29 (by decide)).trans ((kept1_1 (W5 m ρ c) main_v29 (by decide)).trans ((kept1 (W4 m ρ c) main_v29 (by decide)).trans ((W4_of_ne m ρ c main_v29 (by decide)).trans (coef_at3 m ρ c))))
  have hb : W7 m ρ c (Proc.devRef .tc main_arg5) = (m ((c : Thread nD τ).loc main_arg5)) := (W7_of_ne m ρ c main_arg5 (by decide)).trans ((kept1_1 (W5 m ρ c) main_arg5 (by decide)).trans ((kept1 (W4 m ρ c) main_arg5 (by decide)).trans ((W4_of_ne m ρ c main_arg5 (by decide)).trans ((kept0_2 (W2 m ρ c) main_arg5 (by decide)).trans ((kept0_1 (W1 m ρ c) main_arg5 (by decide)).trans ((kept0 (W0 m ρ c) main_arg5 (by decide)).trans (rfl)))))))
  rw [hs, hd, hc, hb, lin2_at7 m ρ c]
  rfl

end Cert.KernelIdeal.Whole

end
-- ==== Proof.LibHostStretches.lean ====
/-
  A straight line of host operations read in stretches, and a value carried through an outlined call.

  * `after_append`, `after_split`: what a line of host operations leaves (the fold `StableHlo.after` of the operations
    over the contents it starts from) is what its last part leaves from what its first part leaves. So a long line is
    read a stretch at a time, each stretch over an ARBITRARY starting valuation: the terms stay small, and values
    several later operations consume are named once (at the stretch's start) instead of being copied into every use.
  * `ofBuf_toBuf`: the operations of an outlined function (`func.call`) read and write their operands through typed
    references, a transport along the buffer's type equation each way. A value written that way and read back at
    its own type is the value. Rewriting with it first leaves a line with outlined calls comparable, by reading,
    with the same operations written without the calls.

  General in the topology, the reference signature and the element values.
-/
import Idealize.ShloMosaic.Lib.StableHlo.Run

namespace Cert.HostLine

open Idealize.ShloMosaic Idealize.ShloMosaic.StableHlo

variable {τ : Topo} {sig : RefSig} {Val : EltTy → Type}

/-- Two stretches run one after the other are their concatenation run as one. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A line of operations run as its first `n` and then the rest. -/
theorem after_split (n : Nat) (l : List (HloOp τ sig Val)) (V : Valuation τ sig Val) :
    after l V = after (l.drop n) (after (l.take n) V) := by
  rw [← after_append, List.take_append_drop]

/-- A value written to a typed reference's buffer and read back at the value's type is the value. -/
theorem ofBuf_toBuf {T : BufTy} (x : TRef sig T) (v : T.Contents Val) : x.ofBuf (x.toBuf v) = v := by
  obtain ⟨r, te, od, us⟩ := x
  subst te
  rfl

end Cert.HostLine
-- ==== Proof.ReferenceHost.lean ====
/-
  The idealized reference's host operations, read a stretch at a time.

  The reference is one line of 117 host operations. It is cut here into eight consecutive stretches — the edge
  list's columns and the node degrees; the first layer's product, its edge coefficients, its aggregation; the same
  three for the second layer; the log-softmax — and each stretch is read from an ARBITRARY starting contents `V`: the
  buffer it fills is the shared function of Spec.lean of the buffers it reads, and every buffer it does not write
  keeps its contents. A line run as its stretches in turn is the line (the fold of the operations splits at any
  cut), so the result buffer's final contents is the composition of the eight readings.
-/
import proofs.«140462_j23587960389983_1_alg».proof.Proof.RefOps
import proofs.«140462_j23587960389983_1_alg».proof.Proof.Spec
import proofs.«140462_j23587960389983_1_alg».proof.Proof.LibHostStretches

set_option maxRecDepth 16384

noncomputable section

namespace Cert.ReferenceIdeal.Host

open Cert.ReferenceIdeal Cert.ReferenceIdeal.Gen Cert.ReferenceIdeal.Value Cert.Gcn Cert.HostLine
open Idealize.ShloMosaic Idealize.ShloMosaic.TcCoe Idealize.ShloMosaic.StableHlo Idealize.SL.Sem

variable {F : FTy → Type} [FloatOps F]

/-! ## The eight stretches -/

/-- Operations 0 … 20: the edge list's columns and the degrees. -/
abbrev pre : List (HloOp τ sig (Elt F)) := ((ops (F := F)).drop 0).take 21
/-- Operations 21 … 21: the first layer's product. -/
abbrev lin1 : List (HloOp τ sig (Elt F)) := ((ops (F := F)).drop 21).take 1
/-- Operations 22 … 40: the first layer's edge coefficients. -/
abbrev norm1 : List (HloOp τ sig (Elt F)) := ((ops (F := F)).drop 22).take 19
/-- Operations 41 … 62: the first layer's aggregation and maximum with zero. -/
abbrev layer1 : List (HloOp τ sig (Elt F)) := ((ops (F := F)).drop 41).take 22
/-- Operations 63 … 63: the second layer's product. -/
abbrev lin2 : List (HloOp τ sig (Elt F)) := ((ops (F := F)).drop 63).take 1
/-- Operations 64 … 82: the second layer's edge coefficients. -/
abbrev norm2 : List (HloOp τ sig (Elt F)) := ((ops (F := F)).drop 64).take 19
/-- Operations 83 … 101: the second layer's aggregation. -/
abbrev agg2 : List (HloOp τ sig (Elt F)) := ((ops (F := F)).drop 83).take 19
/-- Operations 102 … 116: the log-softmax. -/
abbrev softmax : List (HloOp τ sig (Elt F)) := ((ops (F := F)).drop 102).take 15

/-- The line is its eight stretches in order. -/
theorem ops_eq : (ops : List (HloOp τ sig (Elt F))) = pre ++ (lin1 ++ (norm1 ++ (layer1 ++ (lin2 ++ (norm2 ++ (agg2 ++ (softmax))))))) := rfl

/-- So the line's fold is the stretches' folds in turn. -/
theorem after_ops (V : Valuation τ sig (Elt F)) :
    after ops V = after softmax (after agg2 (after norm2 (after lin2 (after layer1 (after norm1 (after lin1 (after pre (V)))))))) := by
  rw [ops_eq]
  simp only [after_append]

/-! ## What each stretch writes -/

/-- The buffers stretch `pre` writes. -/
abbrev written_pre : List (Ref sig .tc) := [main_v0, main_v1, main_v2, main_v3, main_v4, main_v5, main_v6, main_cst, main_v7, main_cst_0, main_v8, main_v9, main_v10, main_cst_1, main_v11, main_v12, main_v13, main_cst_2, main_call0_v0, main_call0_v1, main_v14]
theorem writes_pre : (pre : List (HloOp τ sig (Elt F))).Forall fun op => op.writes ⊆ (written_pre.map (Proc.devRef (τ := τ) .tc)).toFinset := by
  show List.Forall _ [_, _, _, _, _, _, _, _, _, _, _, _, _, _, _, _, _, _, _, _, _]
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
/-- A buffer stretch `pre` does not write keeps its contents. -/
theorem kept_pre (V : Valuation τ sig (Elt F)) (r : Ref sig .tc) (h : r ∉ written_pre) :
    after pre V (Proc.devRef .tc r) = V (Proc.devRef .tc r) :=
  after_of_writes_sub _ V writes_pre h

/-- The buffers stretch `lin1` writes. -/
abbrev written_lin1 : List (Ref sig .tc) := [main_v15]
theorem writes_lin1 : (lin1 : List (HloOp τ sig (Elt F))).Forall fun op => op.writes ⊆ (written_lin1.map (Proc.devRef (τ := τ) .tc)).toFinset := by
  show List.Forall _ [_]
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
/-- A buffer stretch `lin1` does not write keeps its contents. -/
theorem kept_lin1 (V : Valuation τ sig (Elt F)) (r : Ref sig .tc) (h : r ∉ written_lin1) :
    after lin1 V (Proc.devRef .tc r) = V (Proc.devRef .tc r) :=
  after_of_writes_sub _ V writes_lin1 h

/-- The buffers stretch `norm1` writes. -/
abbrev written_norm1 : List (Ref sig .tc) := [main_c, main_v16, main_v17, main_c_3, main_v18, main_v19, main_v20, main_v21, main_v22, main_c_4, main_v23, main_v24, main_c_5, main_v25, main_v26, main_v27, main_v28, main_v29, main_v30]
theorem writes_norm1 : (norm1 : List (HloOp τ sig (Elt F))).Forall fun op => op.writes ⊆ (written_norm1.map (Proc.devRef (τ := τ) .tc)).toFinset := by
  show List.Forall _ [_, _, _, _, _, _, _, _, _, _, _, _, _, _, _, _, _, _, _]
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
/-- A buffer stretch `norm1` does not write keeps its contents. -/
theorem kept_norm1 (V : Valuation τ sig (Elt F)) (r : Ref sig .tc) (h : r ∉ written_norm1) :
    after norm1 V (Proc.devRef .tc r) = V (Proc.devRef .tc r) :=
  after_of_writes_sub _ V writes_norm1 h

/-- The buffers stretch `layer1` writes. -/
abbrev written_layer1 : List (Ref sig .tc) := [main_c_6, main_v31, main_v32, main_c_7, main_v33, main_v34, main_v35, main_v36, main_v37, main_v38, main_v39, main_v40, main_cst_8, main_v41, main_v42, main_v43, main_v44, main_v45, main_v46, main_call1_cst, main_call1_v0, main_v47]
theorem writes_layer1 : (layer1 : List (HloOp τ sig (Elt F))).Forall fun op => op.writes ⊆ (written_layer1.map (Proc.devRef (τ := τ) .tc)).toFinset := by
  show List.Forall _ [_, _, _, _, _, _, _, _, _, _, _, _, _, _, _, _, _, _, _, _, _, _]
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
/-- A buffer stretch `layer1` does not write keeps its contents. -/
theorem kept_layer1 (V : Valuation τ sig (Elt F)) (r : Ref sig .tc) (h : r ∉ written_layer1) :
    after layer1 V (Proc.devRef .tc r) = V (Proc.devRef .tc r) :=
  after_of_writes_sub _ V writes_layer1 h

/-- The buffers stretch `lin2` writes. -/
abbrev written_lin2 : List (Ref sig .tc) := [main_v48]
theorem writes_lin2 : (lin2 : List (HloOp τ sig (Elt F))).Forall fun op => op.writes ⊆ (written_lin2.map (Proc.devRef (τ := τ) .tc)).toFinset := by
  show List.Forall _ [_]
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
/-- A buffer stretch `lin2` does not write keeps its contents. -/
theorem kept_lin2 (V : Valuation τ sig (Elt F)) (r : Ref sig .tc) (h : r ∉ written_lin2) :
    after lin2 V (Proc.devRef .tc r) = V (Proc.devRef .tc r) :=
  after_of_writes_sub _ V writes_lin2 h

/-- The buffers stretch `norm2` writes. -/
abbrev written_norm2 : List (Ref sig .tc) := [main_c_9, main_v49, main_v50, main_c_10, main_v51, main_v52, main_v53, main_v54, main_v55, main_c_11, main_v56, main_v57, main_c_12, main_v58, main_v59, main_v60, main_v61, main_v62, main_v63]
theorem writes_norm2 : (norm2 : List (HloOp τ sig (Elt F))).Forall fun op => op.writes ⊆ (written_norm2.map (Proc.devRef (τ := τ) .tc)).toFinset := by
  show List.Forall _ [_, _, _, _, _, _, _, _, _, _, _, _, _, _, _, _, _, _, _]
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
/-- A buffer stretch `norm2` does not write keeps its contents. -/
theorem kept_norm2 (V : Valuation τ sig (Elt F)) (r : Ref sig .tc) (h : r ∉ written_norm2) :
    after norm2 V (Proc.devRef .tc r) = V (Proc.devRef .tc r) :=
  after_of_writes_sub _ V writes_norm2 h

/-- The buffers stretch `agg2` writes. -/
abbrev written_agg2 : List (Ref sig .tc) := [main_c_13, main_v64, main_v65, main_c_14, main_v66, main_v67, main_v68, main_v69, main_v70, main_v71, main_v72, main_v73, main_cst_15, main_v74, main_v75, main_v76, main_v77, main_v78, main_v79]
theorem writes_agg2 : (agg2 : List (HloOp τ sig (Elt F))).Forall fun op => op.writes ⊆ (written_agg2.map (Proc.devRef (τ := τ) .tc)).toFinset := by
  show List.Forall _ [_, _, _, _, _, _, _, _, _, _, _, _, _, _, _, _, _, _, _]
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
/-- A buffer stretch `agg2` does not write keeps its contents. -/
theorem kept_agg2 (V : Valuation τ sig (Elt F)) (r : Ref sig .tc) (h : r ∉ written_agg2) :
    after agg2 V (Proc.devRef .tc r) = V (Proc.devRef .tc r) :=
  after_of_writes_sub _ V writes_agg2 h

/-- The buffers stretch `softmax` writes. -/
abbrev written_softmax : List (Ref sig .tc) := [main_call2_cst, main_call2_v0, main_call2_cst_0, main_call2_v1, main_call2_v2, main_call2_v3, main_call2_v4, main_call2_v5, main_call2_v6, main_call2_cst_1, main_call2_v7, main_call2_v8, main_call2_v9, main_call2_v10, main_v80]
theorem writes_softmax : (softmax : List (HloOp τ sig (Elt F))).Forall fun op => op.writes ⊆ (written_softmax.map (Proc.devRef (τ := τ) .tc)).toFinset := by
  show List.Forall _ [_, _, _, _, _, _, _, _, _, _, _, _, _, _, _]
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
/-- A buffer stretch `softmax` does not write keeps its contents. -/
theorem kept_softmax (V : Valuation τ sig (Elt F)) (r : Ref sig .tc) (h : r ∉ written_softmax) :
    after softmax V (Proc.devRef .tc r) = V (Proc.devRef .tc r) :=
  after_of_writes_sub _ V writes_softmax h

/-! ## What each stretch computes -/

set_option maxHeartbeats 8000000 in
/-- The source column. -/
theorem sources (V : Valuation τ sig (Elt F)) :
    after pre V (Proc.devRef .tc main_v3) = src (V (Proc.devRef .tc main_arg1)) := by
  show after [_, _, _, _, _, _, _, _, _, _, _, _, _, _, _, _, _, _, _, _, _] V _ = _
  after_results
  rfl

set_option maxHeartbeats 8000000 in
/-- The target column. -/
theorem targets (V : Valuation τ sig (Elt F)) :
    after pre V (Proc.devRef .tc main_v6) = dst (V (Proc.devRef .tc main_arg1)) := by
  show after [_, _, _, _, _, _, _, _, _, _, _, _, _, _, _, _, _, _, _, _, _] V _ = _
  after_results
  rfl

set_option maxHeartbeats 8000000 in
/-- Each node's degree to the power −1/2, zero where the degree is not positive. -/
theorem node_scale (V : Valuation τ sig (Elt F)) :
    after pre V (Proc.devRef .tc main_v14) = invSqrtDeg (dst (V (Proc.devRef .tc main_arg1))) := by
  show after [_, _, _, _, _, _, _, _, _, _, _, _, _, _, _, _, _, _, _, _, _] V _ = _
  after_results
  rfl

set_option maxHeartbeats 8000000 in
/-- The first layer's rows: the host product of the features and the first weights. -/
theorem product1 (V : Valuation τ sig (Elt F)) :
    after lin1 V (Proc.devRef .tc main_v15) = Host.dotGeneral dot_S100000x1433_S1433x16_S100000x16_1_0_0_1_n_n none (V (Proc.devRef .tc main_arg0)) (V (Proc.devRef .tc main_arg2)) := by
  show after [_] V _ = _
  after_results

set_option maxHeartbeats 8000000 in
/-- The edge coefficients, as the first layer computes them. -/
theorem edge_coef1 (V : Valuation τ sig (Elt F)) :
    after norm1 V (Proc.devRef .tc main_v30) = coef (V (Proc.devRef .tc main_v3)) (V (Proc.devRef .tc main_v6)) (V (Proc.devRef .tc main_v14)) := by
  show after [_, _, _, _, _, _, _, _, _, _, _, _, _, _, _, _, _, _, _] V _ = _
  after_results
  rfl

set_option maxHeartbeats 8000000 in
/-- The hidden rows from the first layer's product. -/
theorem hidden_rows (V : Valuation τ sig (Elt F)) :
    after layer1 V (Proc.devRef .tc main_v47) = hidden (V (Proc.devRef .tc main_v3)) (V (Proc.devRef .tc main_v6)) (V (Proc.devRef .tc main_v30)) (V (Proc.devRef .tc main_arg3)) (V (Proc.devRef .tc main_v15)) := by
  show after [_, _, _, _, _, _, _, _, _, _, _, _, _, _, _, _, _, _, _, _, _, _] V _ = _
  after_results
  rfl

set_option maxHeartbeats 8000000 in
/-- The second layer's rows: the host product of the hidden rows and the second weights. -/
theorem product2 (V : Valuation τ sig (Elt F)) :
    after lin2 V (Proc.devRef .tc main_v48) = Host.dotGeneral dot_S100000x16_S16x7_S100000x7_1_0_0_1_n_n none (V (Proc.devRef .tc main_v47)) (V (Proc.devRef .tc main_arg4)) := by
  show after [_] V _ = _
  after_results

set_option maxHeartbeats 8000000 in
/-- The edge coefficients, as the second layer computes them again. -/
theorem edge_coef2 (V : Valuation τ sig (Elt F)) :
    after norm2 V (Proc.devRef .tc main_v63) = coef (V (Proc.devRef .tc main_v3)) (V (Proc.devRef .tc main_v6)) (V (Proc.devRef .tc main_v14)) := by
  show after [_, _, _, _, _, _, _, _, _, _, _, _, _, _, _, _, _, _, _] V _ = _
  after_results
  rfl

set_option maxHeartbeats 8000000 in
/-- The logits from the second layer's product. -/
theorem logit_rows (V : Valuation τ sig (Elt F)) :
    after agg2 V (Proc.devRef .tc main_v79) = logits (V (Proc.devRef .tc main_v3)) (V (Proc.devRef .tc main_v6)) (V (Proc.devRef .tc main_v63)) (V (Proc.devRef .tc main_arg5)) (V (Proc.devRef .tc main_v48)) := by
  show after [_, _, _, _, _, _, _, _, _, _, _, _, _, _, _, _, _, _, _] V _ = _
  after_results
  rfl

set_option maxHeartbeats 8000000 in
/-- The row-wise log-softmax of the logits' buffer. -/
theorem softmax_rows (V : Valuation τ sig (Elt F)) :
    after softmax V (Proc.devRef .tc main_v80) = logSoftmax (V (Proc.devRef .tc main_v79)) := by
  show after [_, _, _, _, _, _, _, _, _, _, _, _, _, _, _] V _ = _
  after_results
  simp only [TRef.ofBuf, TRef.toBuf, cast_eq]
  rfl

end Cert.ReferenceIdeal.Host

end
-- ==== Proof.ReferenceValue.lean ====
/-
  What the idealized reference's result buffer ends holding, as one function of the argument arrays.

  The line's fold is its eight stretches' folds in turn. Read at the result buffer, backwards: the log-softmax reads
  the logits; the logits read the second product, the edge data and the second bias; the second product reads the
  hidden rows; those the first product; the edge data are made by the first stretch (and the coefficients once per
  layer, from the same columns), and no stretch writes an argument or rewrites a column. Composed, the result is
  `network` of Spec.lean with both linear maps the host's `dot_general`.
-/
import proofs.«140462_j23587960389983_1_alg».proof.Proof.ReferenceHost

set_option maxRecDepth 16384

noncomputable section

namespace Cert.ReferenceIdeal.Host

open Cert.ReferenceIdeal Cert.ReferenceIdeal.Gen Cert.ReferenceIdeal.Value Cert.Gcn
open Idealize.ShloMosaic Idealize.ShloMosaic.TcCoe Idealize.ShloMosaic.StableHlo Idealize.SL.Sem

variable {F : FTy → Type} [FloatOps F]
variable (m : (ℓ : Loc nD τ sig) → Buf (Elt F) ℓ)

/-! ## The contents after each stretch -/

/-- The buffers' contents after stretch `pre`. -/
abbrev Y1 (c : Dev nD) : Valuation τ sig (Elt F) := after pre (launchContents m c)
/-- The buffers' contents after stretch `lin1`. -/
abbrev Y2 (c : Dev nD) : Valuation τ sig (Elt F) := after lin1 (Y1 m c)
/-- The buffers' contents after stretch `norm1`. -/
abbrev Y3 (c : Dev nD) : Valuation τ sig (Elt F) := after norm1 (Y2 m c)
/-- The buffers' contents after stretch `layer1`. -/
abbrev Y4 (c : Dev nD) : Valuation τ sig (Elt F) := after layer1 (Y3 m c)
/-- The buffers' contents after stretch `lin2`. -/
abbrev Y5 (c : Dev nD) : Valuation τ sig (Elt F) := after lin2 (Y4 m c)
/-- The buffers' contents after stretch `norm2`. -/
abbrev Y6 (c : Dev nD) : Valuation τ sig (Elt F) := after norm2 (Y5 m c)
/-- The buffers' contents after stretch `agg2`. -/
abbrev Y7 (c : Dev nD) : Valuation τ sig (Elt F) := after agg2 (Y6 m c)
/-- The buffers' contents after stretch `softmax`. -/
abbrev Y8 (c : Dev nD) : Valuation τ sig (Elt F) := after softmax (Y7 m c)

/-- The source column, from the first stretch on. -/
theorem sources_at1 (c : Dev nD) : (Y1 m c) (Proc.devRef .tc main_v3) = src (m ((c.tc : Thread nD τ).loc main_arg1)) := sources (launchContents m c)
/-- The target column, from the first stretch on. -/
theorem targets_at1 (c : Dev nD) : (Y1 m c) (Proc.devRef .tc main_v6) = dst (m ((c.tc : Thread nD τ).loc main_arg1)) := targets (launchContents m c)
/-- The node values deg^(-1/2), from the first stretch on. -/
theorem node_scale_at1 (c : Dev nD) : (Y1 m c) (Proc.devRef .tc main_v14) = invSqrtDeg (dst (m ((c.tc : Thread nD τ).loc main_arg1))) := node_scale (launchContents m c)

/-- The first product. -/
theorem lin1_at2 (c : Dev nD) : (Y2 m c) (Proc.devRef .tc main_v15) = Host.dotGeneral dot_S100000x1433_S1433x16_S100000x16_1_0_0_1_n_n none (m ((c.tc : Thread nD τ).loc main_arg0)) (m ((c.tc : Thread nD τ).loc main_arg2)) := by
  refine (product1 (Y1 m c)).trans ?_
  have h0 : (Y1 m c) (Proc.devRef .tc main_arg0) = (m ((c.tc : Thread nD τ).loc main_arg0)) := (kept_pre (launchContents m c) main_arg0 (by decide)).trans (rfl)
  have h2 : (Y1 m c) (Proc.devRef .tc main_arg2) = (m ((c.tc : Thread nD τ).loc main_arg2)) := (kept_pre (launchContents m c) main_arg2 (by decide)).trans (rfl)
  rw [h0, h2]

/-- The edge coefficients of the first layer. -/
theorem coef_at3 (c : Dev nD) : (Y3 m c) (Proc.devRef .tc main_v30) = coef (src (m ((c.tc : Thread nD τ).loc main_arg1))) (dst (m ((c.tc : Thread nD τ).loc main_arg1))) (invSqrtDeg (dst (m ((c.tc : Thread nD τ).loc main_arg1)))) := by
  refine (edge_coef1 (Y2 m c)).trans ?_
  have hs : (Y2 m c) (Proc.devRef .tc main_v3) = src (m ((c.tc : Thread nD τ).loc main_arg1)) := (kept_lin1 (Y1 m c) main_v3 (by decide)).trans (sources_at1 m c)
  have hd : (Y2 m c) (Proc.devRef .tc main_v6) = dst (m ((c.tc : Thread nD τ).loc main_arg1)) := (kept_lin1 (Y1 m c) main_v6 (by decide)).trans (targets_at1 m c)
  have hg : (Y2 m c) (Proc.devRef .tc main_v14) = invSqrtDeg (dst (m ((c.tc : Thread nD τ).loc main_arg1))) := (kept_lin1 (Y1 m c) main_v14 (by decide)).trans (node_scale_at1 m c)
  rw [hs, hd, hg]

/-- The hidden rows. -/
theorem hidden_at4 (c : Dev nD) : (Y4 m c) (Proc.devRef .tc main_v47) = hidden (src (m ((c.tc : Thread nD τ).loc main_arg1))) (dst (m ((c.tc : Thread nD τ).loc main_arg1))) (coef (src (m ((c.tc : Thread nD τ).loc main_arg1))) (dst (m ((c.tc : Thread nD τ).loc main_arg1))) (invSqrtDeg (dst (m ((c.tc : Thread nD τ).loc main_arg1))))) (m ((c.tc : Thread nD τ).loc main_arg3)) (Host.dotGeneral dot_S100000x1433_S1433x16_S100000x16_1_0_0_1_n_n none (m ((c.tc : Thread nD τ).loc main_arg0)) (m ((c.tc : Thread nD τ).loc main_arg2))) := by
  refine (hidden_rows (Y3 m c)).trans ?_
  have hs : (Y3 m c) (Proc.devRef .tc main_v3) = src (m ((c.tc : Thread nD τ).loc main_arg1)) := (kept_norm1 (Y2 m c) main_v3 (by decide)).trans ((kept_lin1 (Y1 m c) main_v3 (by decide)).trans (sources_at1 m c))
  have hd : (Y3 m c) (Proc.devRef .tc main_v6) = dst (m ((c.tc : Thread nD τ).loc main_arg1)) := (kept_norm1 (Y2 m c) main_v6 (by decide)).trans ((kept_lin1 (Y1 m c) main_v6 (by decide)).trans (targets_at1 m c))
  have hb : (Y3 m c) (Proc.devRef .tc main_arg3) = (m ((c.tc : Thread nD τ).loc main_arg3)) := (kept_norm1 (Y2 m c) main_arg3 (by decide)).trans ((kept_lin1 (Y1 m c) main_arg3 (by decide)).trans ((kept_pre (launchContents m c) main_arg3 (by decide)).trans (rfl)))
  have hl : (Y3 m c) (Proc.devRef .tc main_v15) = Host.dotGeneral dot_S100000x1433_S1433x16_S100000x16_1_0_0_1_n_n none (m ((c.tc : Thread nD τ).loc main_arg0)) (m ((c.tc : Thread nD τ).loc main_arg2)) := (kept_norm1 (Y2 m c) main_v15 (by decide)).trans (lin1_at2 m c)
  rw [hs, hd, coef_at3 m c, hb, hl]

/-- The second product. -/
theorem lin2_at5 (c : Dev nD) : (Y5 m c) (Proc.devRef .tc main_v48) = Host.dotGeneral dot_S100000x16_S16x7_S100000x7_1_0_0_1_n_n none (hidden (src (m ((c.tc : Thread nD τ).loc main_arg1))) (dst (m ((c.tc : Thread nD τ).loc main_arg1))) (coef (src (m ((c.tc : Thread nD τ).loc main_arg1))) (dst (m ((c.tc : Thread nD τ).loc main_arg1))) (invSqrtDeg (dst (m ((c.tc : Thread nD τ).loc main_arg1))))) (m ((c.tc : Thread nD τ).loc main_arg3)) (Host.dotGeneral dot_S100000x1433_S1433x16_S100000x16_1_0_0_1_n_n none (m ((c.tc : Thread nD τ).loc main_arg0)) (m ((c.tc : Thread nD τ).loc main_arg2)))) (m ((c.tc : Thread nD τ).loc main_arg4)) := by
  refine (product2 (Y4 m c)).trans ?_
  have h2 : (Y4 m c) (Proc.devRef .tc main_arg4) = (m ((c.tc : Thread nD τ).loc main_arg4)) := (kept_layer1 (Y3 m c) main_arg4 (by decide)).trans ((kept_norm1 (Y2 m c) main_arg4 (by decide)).trans ((kept_lin1 (Y1 m c) main_arg4 (by decide)).trans ((kept_pre (launchContents m c) main_arg4 (by decide)).trans (rfl))))
  rw [hidden_at4 m c, h2]

/-- The edge coefficients of the second layer: the first layer's, computed again from the same columns. -/
theorem coef_at6 (c : Dev nD) : (Y6 m c) (Proc.devRef .tc main_v63) = coef (src (m ((c.tc : Thread nD τ).loc main_arg1))) (dst (m ((c.tc : Thread nD τ).loc main_arg1))) (invSqrtDeg (dst (m ((c.tc : Thread nD τ).loc main_arg1)))) := by
  refine (edge_coef2 (Y5 m c)).trans ?_
  have hs : (Y5 m c) (Proc.devRef .tc main_v3) = src (m ((c.tc : Thread nD τ).loc main_arg1)) := (kept_lin2 (Y4 m c) main_v3 (by decide)).trans ((kept_layer1 (Y3 m c) main_v3 (by decide)).trans ((kept_norm1 (Y2 m c) main_v3 (by decide)).trans ((kept_lin1 (Y1 m c) main_v3 (by decide)).trans (sources_at1 m c))))
  have hd : (Y5 m c) (Proc.devRef .tc main_v6) = dst (m ((c.tc : Thread nD τ).loc main_arg1)) := (kept_lin2 (Y4 m c) main_v6 (by decide)).trans ((kept_layer1 (Y3 m c) main_v6 (by decide)).trans ((kept_norm1 (Y2 m c) main_v6 (by decide)).trans ((kept_lin1 (Y1 m c) main_v6 (by decide)).trans (targets_at1 m c))))
  have hg : (Y5 m c) (Proc.devRef .tc main_v14) = invSqrtDeg (dst (m ((c.tc : Thread nD τ).loc main_arg1))) := (kept_lin2 (Y4 m c) main_v14 (by decide)).trans ((kept_layer1 (Y3 m c) main_v14 (by decide)).trans ((kept_norm1 (Y2 m c) main_v14 (by decide)).trans ((kept_lin1 (Y1 m c) main_v14 (by decide)).trans (node_scale_at1 m c))))
  rw [hs, hd, hg]

/-- The logits. -/
theorem logits_at7 (c : Dev nD) : (Y7 m c) (Proc.devRef .tc main_v79)
    = logits (src (m ((c.tc : Thread nD τ).loc main_arg1))) (dst (m ((c.tc : Thread nD τ).loc main_arg1))) (coef (src (m ((c.tc : Thread nD τ).loc main_arg1))) (dst (m ((c.tc : Thread nD τ).loc main_arg1))) (invSqrtDeg (dst (m ((c.tc : Thread nD τ).loc main_arg1))))) (m ((c.tc : Thread nD τ).loc main_arg5)) (Host.dotGeneral dot_S100000x16_S16x7_S100000x7_1_0_0_1_n_n none (hidden (src (m ((c.tc : Thread nD τ).loc main_arg1))) (dst (m ((c.tc : Thread nD τ).loc main_arg1))) (coef (src (m ((c.tc : Thread nD τ).loc main_arg1))) (dst (m ((c.tc : Thread nD τ).loc main_arg1))) (invSqrtDeg (dst (m ((c.tc : Thread nD τ).loc main_arg1))))) (m ((c.tc : Thread nD τ).loc main_arg3)) (Host.dotGeneral dot_S100000x1433_S1433x16_S100000x16_1_0_0_1_n_n none (m ((c.tc : Thread nD τ).loc main_arg0)) (m ((c.tc : Thread nD τ).loc main_arg2)))) (m ((c.tc : Thread nD τ).loc main_arg4))) := by
  refine (logit_rows (Y6 m c)).trans ?_
  have hs : (Y6 m c) (Proc.devRef .tc main_v3) = src (m ((c.tc : Thread nD τ).loc main_arg1)) := (kept_norm2 (Y5 m c) main_v3 (by decide)).trans ((kept_lin2 (Y4 m c) main_v3 (by decide)).trans ((kept_layer1 (Y3 m c) main_v3 (by decide)).trans ((kept_norm1 (Y2 m c) main_v3 (by decide)).trans ((kept_lin1 (Y1 m c) main_v3 (by decide)).trans (sources_at1 m c)))))
  have hd : (Y6 m c) (Proc.devRef .tc main_v6) = dst (m ((c.tc : Thread nD τ).loc main_arg1)) := (kept_norm2 (Y5 m c) main_v6 (by decide)).trans ((kept_lin2 (Y4 m c) main_v6 (by decide)).trans ((kept_layer1 (Y3 m c) main_v6 (by decide)).trans ((kept_norm1 (Y2 m c) main_v6 (by decide)).trans ((kept_lin1 (Y1 m c) main_v6 (by decide)).trans (targets_at1 m c)))))
  have hb : (Y6 m c) (Proc.devRef .tc main_arg5) = (m ((c.tc : Thread nD τ).loc main_arg5)) := (kept_norm2 (Y5 m c) main_arg5 (by decide)).trans ((kept_lin2 (Y4 m c) main_arg5 (by decide)).trans ((kept_layer1 (Y3 m c) main_arg5 (by decide)).trans ((kept_norm1 (Y2 m c) main_arg5 (by decide)).trans ((kept_lin1 (Y1 m c) main_arg5 (by decide)).trans ((kept_pre (launchContents m c) main_arg5 (by decide)).trans (rfl))))))
  have hl : (Y6 m c) (Proc.devRef .tc main_v48) = Host.dotGeneral dot_S100000x16_S16x7_S100000x7_1_0_0_1_n_n none (hidden (src (m ((c.tc : Thread nD τ).loc main_arg1))) (dst (m ((c.tc : Thread nD τ).loc main_arg1))) (coef (src (m ((c.tc : Thread nD τ).loc main_arg1))) (dst (m ((c.tc : Thread nD τ).loc main_arg1))) (invSqrtDeg (dst (m ((c.tc : Thread nD τ).loc main_arg1))))) (m ((c.tc : Thread nD τ).loc main_arg3)) (Host.dotGeneral dot_S100000x1433_S1433x16_S100000x16_1_0_0_1_n_n none (m ((c.tc : Thread nD τ).loc main_arg0)) (m ((c.tc : Thread nD τ).loc main_arg2)))) (m ((c.tc : Thread nD τ).loc main_arg4)) := (kept_norm2 (Y5 m c) main_v48 (by decide)).trans (lin2_at5 m c)
  rw [hs, hd, coef_at6 m c, hb, hl]

/-! ## No stretch writes an argument -/

/-- Argument 0 ends as launched. -/
theorem arg0_kept (c : Dev nD) : after ops (launchContents m c) (Proc.devRef .tc main_arg0) = (m ((c.tc : Thread nD τ).loc main_arg0)) := by
  rw [after_ops]
  exact (kept_softmax (Y7 m c) main_arg0 (by decide)).trans ((kept_agg2 (Y6 m c) main_arg0 (by decide)).trans ((kept_norm2 (Y5 m c) main_arg0 (by decide)).trans ((kept_lin2 (Y4 m c) main_arg0 (by decide)).trans ((kept_layer1 (Y3 m c) main_arg0 (by decide)).trans ((kept_norm1 (Y2 m c) main_arg0 (by decide)).trans ((kept_lin1 (Y1 m c) main_arg0 (by decide)).trans ((kept_pre (launchContents m c) main_arg0 (by decide)).trans (rfl))))))))

/-- Argument 1 ends as launched. -/
theorem arg1_kept (c : Dev nD) : after ops (launchContents m c) (Proc.devRef .tc main_arg1) = (m ((c.tc : Thread nD τ).loc main_arg1)) := by
  rw [after_ops]
  exact (kept_softmax (Y7 m c) main_arg1 (by decide)).trans ((kept_agg2 (Y6 m c) main_arg1 (by decide)).trans ((kept_norm2 (Y5 m c) main_arg1 (by decide)).trans ((kept_lin2 (Y4 m c) main_arg1 (by decide)).trans ((kept_layer1 (Y3 m c) main_arg1 (by decide)).trans ((kept_norm1 (Y2 m c) main_arg1 (by decide)).trans ((kept_lin1 (Y1 m c) main_arg1 (by decide)).trans ((kept_pre (launchContents m c) main_arg1 (by decide)).trans (rfl))))))))

/-- Argument 2 ends as launched. -/
theorem arg2_kept (c : Dev nD) : after ops (launchContents m c) (Proc.devRef .tc main_arg2) = (m ((c.tc : Thread nD τ).loc main_arg2)) := by
  rw [after_ops]
  exact (kept_softmax (Y7 m c) main_arg2 (by decide)).trans ((kept_agg2 (Y6 m c) main_arg2 (by decide)).trans ((kept_norm2 (Y5 m c) main_arg2 (by decide)).trans ((kept_lin2 (Y4 m c) main_arg2 (by decide)).trans ((kept_layer1 (Y3 m c) main_arg2 (by decide)).trans ((kept_norm1 (Y2 m c) main_arg2 (by decide)).trans ((kept_lin1 (Y1 m c) main_arg2 (by decide)).trans ((kept_pre (launchContents m c) main_arg2 (by decide)).trans (rfl))))))))

/-- Argument 3 ends as launched. -/
theorem arg3_kept (c : Dev nD) : after ops (launchContents m c) (Proc.devRef .tc main_arg3) = (m ((c.tc : Thread nD τ).loc main_arg3)) := by
  rw [after_ops]
  exact (kept_softmax (Y7 m c) main_arg3 (by decide)).trans ((kept_agg2 (Y6 m c) main_arg3 (by decide)).trans ((kept_norm2 (Y5 m c) main_arg3 (by decide)).trans ((kept_lin2 (Y4 m c) main_arg3 (by decide)).trans ((kept_layer1 (Y3 m c) main_arg3 (by decide)).trans ((kept_norm1 (Y2 m c) main_arg3 (by decide)).trans ((kept_lin1 (Y1 m c) main_arg3 (by decide)).trans ((kept_pre (launchContents m c) main_arg3 (by decide)).trans (rfl))))))))

/-- Argument 4 ends as launched. -/
theorem arg4_kept (c : Dev nD) : after ops (launchContents m c) (Proc.devRef .tc main_arg4) = (m ((c.tc : Thread nD τ).loc main_arg4)) := by
  rw [after_ops]
  exact (kept_softmax (Y7 m c) main_arg4 (by decide)).trans ((kept_agg2 (Y6 m c) main_arg4 (by decide)).trans ((kept_norm2 (Y5 m c) main_arg4 (by decide)).trans ((kept_lin2 (Y4 m c) main_arg4 (by decide)).trans ((kept_layer1 (Y3 m c) main_arg4 (by decide)).trans ((kept_norm1 (Y2 m c) main_arg4 (by decide)).trans ((kept_lin1 (Y1 m c) main_arg4 (by decide)).trans ((kept_pre (launchContents m c) main_arg4 (by decide)).trans (rfl))))))))

/-- Argument 5 ends as launched. -/
theorem arg5_kept (c : Dev nD) : after ops (launchContents m c) (Proc.devRef .tc main_arg5) = (m ((c.tc : Thread nD τ).loc main_arg5)) := by
  rw [after_ops]
  exact (kept_softmax (Y7 m c) main_arg5 (by decide)).trans ((kept_agg2 (Y6 m c) main_arg5 (by decide)).trans ((kept_norm2 (Y5 m c) main_arg5 (by decide)).trans ((kept_lin2 (Y4 m c) main_arg5 (by decide)).trans ((kept_layer1 (Y3 m c) main_arg5 (by decide)).trans ((kept_norm1 (Y2 m c) main_arg5 (by decide)).trans ((kept_lin1 (Y1 m c) main_arg5 (by decide)).trans ((kept_pre (launchContents m c) main_arg5 (by decide)).trans (rfl))))))))

/-- THE RESULT BUFFER after the line: the network of Spec.lean over the host's two products. -/
theorem value (c : Dev nD) : after ops (launchContents m c) (Proc.devRef .tc main_v80)
    = network (m ((c.tc : Thread nD τ).loc main_arg1)) (m ((c.tc : Thread nD τ).loc main_arg3)) (m ((c.tc : Thread nD τ).loc main_arg5)) (Host.dotGeneral dot_S100000x1433_S1433x16_S100000x16_1_0_0_1_n_n none (m ((c.tc : Thread nD τ).loc main_arg0)) (m ((c.tc : Thread nD τ).loc main_arg2)))
        (fun h => Host.dotGeneral dot_S100000x16_S16x7_S100000x7_1_0_0_1_n_n none h (m ((c.tc : Thread nD τ).loc main_arg4))) := by
  rw [after_ops]
  refine (softmax_rows (Y7 m c)).trans ?_
  rw [logits_at7 m c]
  rfl

end Cert.ReferenceIdeal.Host

end
-- ==== Proof.lean ====
/-
  A two-layer graph convolution whose two dense layers run as Pallas matrix-unit kernels, against the same network
  written in plain jnp.

  Both programs build the same edge data (the edge list with a self-loop per node, the degrees, the symmetric
  coefficients deg^(-1/2)[source] · deg^(-1/2)[target]), apply a linear map to the node rows, add the coefficient-scaled
  source rows up at each target, add a bias — with a maximum with zero after the first layer — and finish with a
  row-wise log-softmax. The host operations are the same jnp code lowered twice. The programs differ only in the two
  linear maps: the kernel multiplies a block of rows at a time on the matrix unit from operands narrowed to bf16, the
  reference calls one `dot_general`. On the extended reals the narrowing is the identity, and both are the sum over the
  shared axis of left entry × right entry, the blocks tiling the rows: the same array. So both results are one function
  (`Cert.Gcn.network`) of the same arrays. No finiteness is used: the two sides are the same sums of the same products
  in the same order.

  The frames: the two kernel programs' are generated whole; the reference's is its run with the result dropped.
  The idealization rewrote no operation, so `preserves` has nothing to state.
-/
import proofs.«140462_j23587960389983_1_alg».proof.Defs
import proofs.«140462_j23587960389983_1_alg».proof.Proof.Gen.Kernel
import proofs.«140462_j23587960389983_1_alg».proof.Proof.Gen.Kernel.Skeleton
import proofs.«140462_j23587960389983_1_alg».proof.Proof.Gen.Kernel.Launch
import proofs.«140462_j23587960389983_1_alg».proof.Proof.Gen.Kernel.Points
import proofs.«140462_j23587960389983_1_alg».proof.Proof.Gen.Kernel.Frame
import proofs.«140462_j23587960389983_1_alg».proof.Proof.Gen.KernelIdeal
import proofs.«140462_j23587960389983_1_alg».proof.Proof.Gen.KernelIdeal.Skeleton
import proofs.«140462_j23587960389983_1_alg».proof.Proof.Gen.KernelIdeal.Launch
import proofs.«140462_j23587960389983_1_alg».proof.Proof.Gen.KernelIdeal.Points
import proofs.«140462_j23587960389983_1_alg».proof.Proof.Gen.KernelIdeal.Frame
import proofs.«140462_j23587960389983_1_alg».proof.Proof.Gen.ReferenceIdeal
import proofs.«140462_j23587960389983_1_alg».proof.Proof.Gen.Pre_finite_inputs
import proofs.«140462_j23587960389983_1_alg».proof.Proof.KernelValue
import proofs.«140462_j23587960389983_1_alg».proof.Proof.ReferenceValue
import Idealize.ShloMosaic.Adequacy
import Idealize.ShloMosaic.Init

noncomputable section

namespace Cert.Proof

open Idealize.ShloMosaic Idealize.SL.Sem Cert.Gcn Cert.Dense

/-- The network over the host's two products is the network over the two plain products. -/
theorem network_products (e : (⟨Cert.ReferenceIdeal.S2x3200000, .i32⟩ : BufTy).Contents (Elt Ideal))
    (b1 : (⟨Cert.ReferenceIdeal.S16, .f32⟩ : BufTy).Contents (Elt Ideal)) (b2 : (⟨Cert.ReferenceIdeal.S7, .f32⟩ : BufTy).Contents (Elt Ideal))
    (x : FVec Ideal Cert.ReferenceIdeal.S100000x1433 .f32) (w1 : FVec Ideal Cert.ReferenceIdeal.S1433x16 .f32)
    (w2 : FVec Ideal Cert.ReferenceIdeal.S16x7 .f32) :
    network e b1 b2 (Host.dotGeneral Cert.ReferenceIdeal.dot_S100000x1433_S1433x16_S100000x16_1_0_0_1_n_n none x w1)
        (fun h : FVec Ideal Cert.ReferenceIdeal.S100000x16 .f32 => Host.dotGeneral Cert.ReferenceIdeal.dot_S100000x16_S16x7_S100000x7_1_0_0_1_n_n none h w2)
      = network e b1 b2 (rowsTimes (M := 100000) (K := 1433) (N := 16) x w1)
        (fun h => rowsTimes (M := 100000) (K := 16) (N := 7) h w2) := by
  rw [host1_eq]
  exact congrArg (network e b1 b2 (rowsTimes (M := 100000) (K := 1433) (N := 16) x w1)) (funext fun h => host2_eq h w2)

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, every buffer at the fold of its operations, read at the six arguments, which no
    operation writes. -/
theorem frame_reference : Cert.frame_ReferenceIdeal := fun m ρ _ =>
  (θ_run Cert.ReferenceIdeal.defs _ _).mono (fun _ h c =>
      ⟨(h c Cert.ReferenceIdeal.main_arg0).trans (Cert.ReferenceIdeal.Host.arg0_kept m c), (h c Cert.ReferenceIdeal.main_arg1).trans (Cert.ReferenceIdeal.Host.arg1_kept m c),
       (h c Cert.ReferenceIdeal.main_arg2).trans (Cert.ReferenceIdeal.Host.arg2_kept m c), (h c Cert.ReferenceIdeal.main_arg3).trans (Cert.ReferenceIdeal.Host.arg3_kept m c),
       (h c Cert.ReferenceIdeal.main_arg4).trans (Cert.ReferenceIdeal.Host.arg4_kept m c), (h c Cert.ReferenceIdeal.main_arg5).trans (Cert.ReferenceIdeal.Host.arg5_kept m c)⟩)
    (Cert.ReferenceIdeal.Value.run (F := Ideal) m ρ)

/-- The idealization rewrote no operation. -/
theorem preserves : Cert.preserves_Kernel_KernelIdeal := trivial

/-- From memories agreeing on the arguments, the idealized kernel's result buffer and the idealized reference's
    end at the same array: the network over the plain products. -/
theorem algebraic : Cert.algebraic_KernelIdeal_ReferenceIdeal := by
  intro m ρ m' ρ' _ hagree
  refine ⟨fun c => network (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg5))
      (rowsTimes (M := 100000) (K := 1433) (N := 16) (m ((c.tc : Thread Cert.KernelIdeal.nD Cert.KernelIdeal.τ).loc Cert.KernelIdeal.main_arg0)) (m ((c.tc : Thread Cert.KernelIdeal.nD Cert.KernelIdeal.τ).loc Cert.KernelIdeal.main_arg2)))
      (fun h => rowsTimes (M := 100000) (K := 16) (N := 7) h (m ((c.tc : Thread Cert.KernelIdeal.nD Cert.KernelIdeal.τ).loc Cert.KernelIdeal.main_arg4))), ?_, ?_⟩
  · exact (θ_run Cert.KernelIdeal.defs _ _).mono
      (fun _ h c => ⟨(h c).1.trans (Cert.KernelIdeal.Whole.value m ρ c), (h c).2⟩)
      (Cert.KernelIdeal.Whole.run (F := Ideal) m ρ)
  · refine (θ_run Cert.ReferenceIdeal.defs _ _).mono (fun _ h c => ?_) (Cert.ReferenceIdeal.Value.run (F := Ideal) m' ρ')
    obtain ⟨e0, e1, e2, e3, e4, e5⟩ := hagree c
    refine ⟨?_, (h c Cert.ReferenceIdeal.main_arg0).trans (Cert.ReferenceIdeal.Host.arg0_kept m' c), (h c Cert.ReferenceIdeal.main_arg1).trans (Cert.ReferenceIdeal.Host.arg1_kept m' c),
       (h c Cert.ReferenceIdeal.main_arg2).trans (Cert.ReferenceIdeal.Host.arg2_kept m' c), (h c Cert.ReferenceIdeal.main_arg3).trans (Cert.ReferenceIdeal.Host.arg3_kept m' c),
       (h c Cert.ReferenceIdeal.main_arg4).trans (Cert.ReferenceIdeal.Host.arg4_kept m' c), (h c Cert.ReferenceIdeal.main_arg5).trans (Cert.ReferenceIdeal.Host.arg5_kept m' c)⟩
    refine (h c Cert.ReferenceIdeal.main_v80).trans ((Cert.ReferenceIdeal.Host.value m' c).trans ?_)
    rw [e0, e1, e2, e3, e4, e5]
    exact network_products _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
